-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S22x3 : Shape := ⟨2, ![22, 3]⟩
abbrev S8388608 : Shape := ⟨1, ![8388608]⟩
abbrev S8388608x2 : Shape := ⟨2, ![8388608, 2]⟩
abbrev S45x128 : Shape := ⟨2, ![45, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S22x3 : S_.BroadcastsInDim S22x3 (![] : Fin 0 → Fin S22x3.rank)
  reducesTo_S22x3_S_d0_1 : S22x3.ReducesTo [0, 1] S_
  h_S_ : 0 < S_.numel
  bcast_S_S8388608 : S_.BroadcastsInDim S8388608 (![] : Fin 0 → Fin S8388608.rank)
  reducesTo_S8388608_S_d0 : S8388608.ReducesTo [0] S_
  bcast_S_S8388608x2 : S_.BroadcastsInDim S8388608x2 (![] : Fin 0 → Fin S8388608x2.rank)
  reducesTo_S8388608x2_S_d0_1 : S8388608x2.ReducesTo [0, 1] S_
  bcast_S_S45x128 : S_.BroadcastsInDim S45x128 (![] : Fin 0 → Fin S45x128.rank)
  reducesTo_S45x128_S_d0_1 : S45x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v50 : IVec S8388608x2 1) : IVec S_ 1 :=
  let main_c_19 : IVec S_ 1 := constantI S_ 1 1#1
  let main_v51 : IVec S_ 1 := (fun x v => Host.reduce IntOp.andi x v reducesTo_S8388608x2_S_d0_1 h_S_) main_v50 main_c_19
  let main_v52 : IVec S_ 1 := andi main_v48 main_v51
  main_v52

def fn_part2 {F : FTy → Type} [FloatOps F] (main_arg3 : FVec F S8388608x2 .f32) (main_arg7 : FVec F S128 .f32) (main_arg8 : FVec F S128x2 .f32) (main_arg9 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg8
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_cst_18 : FVec F S_ .f32 := constant S_ .f32 0x00000000#32
  let main_v49 : FVec F S8388608x2 .f32 := broadcastInDim S8388608x2 ![] bcast_S_S8388608x2 main_cst_18
  let main_v50 : IVec S8388608x2 1 := cmpf .une main_arg3 main_v49
  fn_part3 (F := F) main_v48 main_v50

def fn_part1 {F : FTy → Type} [FloatOps F] (main_arg3 : FVec F S8388608x2 .f32) (main_arg4 : FVec F S45x128 .f32) (main_arg5 : FVec F S128 .f32) (main_arg6 : FVec F S128x128 .f32) (main_arg7 : FVec F S128 .f32) (main_arg8 : FVec F S128x2 .f32) (main_arg9 : FVec F S2 .f32) (main_v13 : IVec S_ 1) (main_v16 : IVec S8388608x2 1) : IVec S_ 1 :=
  let main_c_5 : IVec S_ 1 := constantI S_ 1 1#1
  let main_v17 : IVec S_ 1 := (fun x v => Host.reduce IntOp.andi x v reducesTo_S8388608x2_S_d0_1 h_S_) main_v16 main_c_5
  let main_v18 : IVec S_ 1 := andi main_v13 main_v17
  let main_v19 : FVec F S45x128 .f32 := Host.absf main_arg4
  let main_cst_6 : FVec F S_ .f32 := constant S_ .f32 0x7F800000#32
  let main_v20 : FVec F S45x128 .f32 := broadcastInDim S45x128 ![] bcast_S_S45x128 main_cst_6
  let main_v21 : IVec S45x128 1 := cmpf .olt main_v19 main_v20
  let main_c_7 : IVec S_ 1 := constantI S_ 1 1#1
  let main_v22 : IVec S_ 1 := (fun x v => Host.reduce IntOp.andi x v reducesTo_S45x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg7 main_arg8 main_arg9 main_v33

def fn {F : FTy → Type} [FloatOps F] (main_arg0 : FVec F S22x3 .f32) (main_arg1 : FVec F S8388608 .f32) (main_arg2 : FVec F S8388608x2 .f32) (main_arg3 : FVec F S8388608x2 .f32) (main_arg4 : FVec F S45x128 .f32) (main_arg5 : FVec F S128 .f32) (main_arg6 : FVec F S128x128 .f32) (main_arg7 : FVec F S128 .f32) (main_arg8 : FVec F S128x2 .f32) (main_arg9 : FVec F S2 .f32) : IVec S_ 1 :=
  let main_v0 : FVec F S22x3 .f32 := Host.absf main_arg0
  let main_cst : FVec F S_ .f32 := constant S_ .f32 0x7F800000#32
  let main_v1 : FVec F S22x3 .f32 := broadcastInDim S22x3 ![] bcast_S_S22x3 main_cst
  let main_v2 : IVec S22x3 1 := cmpf .olt main_v0 main_v1
  let main_c : IVec S_ 1 := constantI S_ 1 1#1
  let main_v3 : IVec S_ 1 := (fun x v => Host.reduce IntOp.andi x v reducesTo_S22x3_S_d0_1 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S8388608x2 .f32 := Host.absf main_arg2
  let main_cst_2 : FVec F S_ .f32 := constant S_ .f32 0x7F800000#32
  let main_v10 : FVec F S8388608x2 .f32 := broadcastInDim S8388608x2 ![] bcast_S_S8388608x2 main_cst_2
  let main_v11 : IVec S8388608x2 1 := cmpf .olt main_v9 main_v10
  let main_c_3 : IVec S_ 1 := constantI S_ 1 1#1
  let main_v12 : IVec S_ 1 := (fun x v => Host.reduce IntOp.andi x v reducesTo_S8388608x2_S_d0_1 h_S_) main_v11 main_c_3
  let main_v13 : IVec S_ 1 := andi main_v8 main_v12
  let main_v14 : FVec F S8388608x2 .f32 := Host.absf main_arg3
  let main_cst_4 : FVec F S_ .f32 := constant S_ .f32 0x7F800000#32
  let main_v15 : FVec F S8388608x2 .f32 := broadcastInDim S8388608x2 ![] bcast_S_S8388608x2 main_cst_4
  let main_v16 : IVec S8388608x2 1 := cmpf .olt main_v14 main_v15
  fn_part1 (F := F) main_arg3 main_arg4 main_arg5 main_arg6 main_arg7 main_arg8 main_arg9 main_v13 main_v16
-- ==== Kernel.lean ====
abbrev S22x3 : Shape := ⟨2, ![22, 3]⟩
abbrev S8388608 : Shape := ⟨1, ![8388608]⟩
abbrev S8388608x2 : Shape := ⟨2, ![8388608, 2]⟩
abbrev S45x128 : Shape := ⟨2, ![45, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S45 : Shape := ⟨1, ![45]⟩
abbrev S_ : Shape := ⟨0, ![]⟩
abbrev S45x1 : Shape := ⟨2, ![45, 1]⟩
abbrev S45x3 : Shape := ⟨2, ![45, 3]⟩
abbrev S1x45 : Shape := ⟨2, ![1, 45]⟩
abbrev S1x128 : Shape := ⟨2, ![1, 128]⟩
abbrev S1x2 : Shape := ⟨2, ![1, 2]⟩
abbrev S65536x128 : Shape := ⟨2, ![65536, 128]⟩
abbrev S8388608x1 : Shape := ⟨2, ![8388608, 1]⟩
abbrev S2x8x128 : Shape := ⟨3, ![2, 8, 128]⟩
abbrev S2048x128 : Shape := ⟨2, ![2048, 128]⟩
abbrev S1x8x128 : Shape := ⟨3, ![1, 8, 128]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S1x1x1 : Shape := ⟨3, ![1, 1, 1]⟩

abbrev nBuf : Space → Nat
  | .hbm => 72
  | .vmem => 14
  | .smem => 0
  | _ => 0

abbrev bufTy : (tb : Table) → Fin (tcTables nBuf tb) → BufTy
  | .hbm, ⟨0, _⟩ => ⟨S22x3, .f32⟩
  | .hbm, ⟨1, _⟩ => ⟨S8388608, .f32⟩
  | .hbm, ⟨2, _⟩ => ⟨S8388608x2, .f32⟩
  | .hbm, ⟨3, _⟩ => ⟨S8388608x2, .f32⟩
  | .hbm, ⟨4, _⟩ => ⟨S45x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S45, .i32⟩
  | .hbm, ⟨11, _⟩ => ⟨S45, .i32⟩
  | .hbm, ⟨12, _⟩ => ⟨S_, .i32⟩
  | .hbm, ⟨13, _⟩ => ⟨S45, .i32⟩
  | .hbm, ⟨14, _⟩ => ⟨S45, .i1⟩
  | .hbm, ⟨15, _⟩ => ⟨S_, .i32⟩
  | .hbm, ⟨16, _⟩ => ⟨S45, .i32⟩
  | .hbm, ⟨17, _⟩ => ⟨S45, .i32⟩
  | .hbm, ⟨18, _⟩ => ⟨S45, .i32⟩
  | .hbm, ⟨19, _⟩ => ⟨S45x1, .i32⟩
  | .hbm, ⟨20, _⟩ => ⟨S45x3, .f32⟩
  | .hbm, ⟨21, _⟩ => ⟨S_, .i32⟩
  | .hbm, ⟨22, _⟩ => ⟨S45, .i32⟩
  | .hbm, ⟨23, _⟩ => ⟨S45, .i1⟩
  | .hbm, ⟨24, _⟩ => ⟨S_, .i32⟩
  | .hbm, ⟨25, _⟩ => ⟨S45, .i32⟩
  | .hbm, ⟨26, _⟩ => ⟨S45, .i32⟩
  | .hbm, ⟨27, _⟩ => ⟨S45, .i32⟩
  | .hbm, ⟨28, _⟩ => ⟨S45x1, .i32⟩
  | .hbm, ⟨29, _⟩ => ⟨S45x3, .f32⟩
  | .hbm, ⟨30, _⟩ => ⟨S45x3, .f32⟩
  | .hbm, ⟨31, _⟩ => ⟨S45x3, .f32⟩
  | .hbm, ⟨32, _⟩ => ⟨S_, .f32⟩
  | .hbm, ⟨33, _⟩ => ⟨S45, .f32⟩
  | .hbm, ⟨34, _⟩ => ⟨S45, .f32⟩
  | .hbm, ⟨35, _⟩ => ⟨S1x45, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x2, .f32⟩
  | .hbm, ⟨45, _⟩ => ⟨S1x2, .f32⟩
  | .hbm, ⟨46, _⟩ => ⟨S1x2, .f32⟩
  | .hbm, ⟨47, _⟩ => ⟨S65536x128, .f32⟩
  | .hbm, ⟨48, _⟩ => ⟨S8388608x1, .f32⟩
  | .hbm, ⟨49, _⟩ => ⟨S8388608, .f32⟩
  | .hbm, ⟨50, _⟩ => ⟨S65536x128, .f32⟩
  | .hbm, ⟨51, _⟩ => ⟨S8388608x1, .f32⟩
  | .hbm, ⟨52, _⟩ => ⟨S8388608, .f32⟩
  | .hbm, ⟨53, _⟩ => ⟨S65536x128, .f32⟩
  | .hbm, ⟨54, _⟩ => ⟨S8388608x1, .f32⟩
  | .hbm, ⟨55, _⟩ => ⟨S8388608, .f32⟩
  | .hbm, ⟨56, _⟩ => ⟨S_, .f32⟩
  | .hbm, ⟨57, _⟩ => ⟨S8388608, .f32⟩
  | .hbm, ⟨58, _⟩ => ⟨S8388608, .f32⟩
  | .hbm, ⟨59, _⟩ => ⟨S65536x128, .f32⟩
  | .hbm, ⟨60, _⟩ => ⟨S8388608x1, .f32⟩
  | .hbm, ⟨61, _⟩ => ⟨S8388608, .f32⟩
  | .hbm, ⟨62, _⟩ => ⟨S_, .f32⟩
  | .hbm, ⟨63, _⟩ => ⟨S8388608, .f32⟩
  | .hbm, ⟨64, _⟩ => ⟨S8388608, .f32⟩
  | .hbm, ⟨65, _⟩ => ⟨S65536x128, .f32⟩
  | .hbm, ⟨66, _⟩ => ⟨S2x8x128, .f32⟩
  | .hbm, ⟨67, _⟩ => ⟨S1x1x1, .f32⟩
  | .hbm, ⟨68, _⟩ => ⟨S_, .f32⟩
  | .hbm, ⟨69, _⟩ => ⟨S1x1x1, .f32⟩
  | .hbm, ⟨70, _⟩ => ⟨S_, .f32⟩
  | .hbm, ⟨71, _⟩ => ⟨S_, .f32⟩
  | .local _ .vmem, ⟨0, _⟩ => ⟨S1x2, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x8x128, .f32⟩
  | .local _ .vmem, ⟨12, _⟩ => ⟨S1x8x128, .f32⟩
  | .local _ .vmem, ⟨13, _⟩ => ⟨S1x1, .f32⟩
  | _, _ => ⟨S22x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S45 : S_.BroadcastsInDim S45 (![] : Fin 0 → Fin S45.rank)
  bcast_S45_S45x1_0 : S45.BroadcastsInDim S45x1 (![0] : Fin 1 → Fin S45x1.rank)
  reducesTo_S45x3_S45_d1 : S45x3.ReducesTo [1] S45
  h_S_ : 0 < S_.numel
  bcast_S45_S1x45_1 : S45.BroadcastsInDim S1x45 (![1] : Fin 1 → Fin S1x45.rank)
  bcast_S128_S1x128_1 : S128.BroadcastsInDim S1x128 (![1] : Fin 1 → Fin S1x128.rank)
  bcast_S2_S1x2_1 : S2.BroadcastsInDim S1x2 (![1] : Fin 1 → Fin S1x2.rank)
  shapeCasts_S8388608_S65536x128 : S8388608.ShapeCasts S65536x128
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  inb_S1x8x128_S1x8x128_0_0_0 : ∀ a, (![0, 0, 0] : Fin 3 → Nat) a + S1x8x128.size a ≤ S1x8x128.size a
  h_S1x8x128 : 0 < S1x8x128.numel
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  gather_S22x3_S45x1_S45x3_1_0_n_n_0_1_13_wf : GatherDims.WF S22x3 S45x1 S45x3 [1] [0] [] [0] [] 1 ![1, 3]
  dot_S1x45_S45x128_S1x128_1_0_0_1_n_n_wf : DotDims.WF S1x45 S45x128 S1x128 [1] [0] [0] [1] [] []
  dot_S1x128_S128x128_S1x128_1_0_0_1_n_n_wf : DotDims.WF S1x128 S128x128 S1x128 [1] [0] [0] [1] [] []
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2.size a ≤ S1x2.size a
  hwx0_0 : ∀ i : grid0.Coords, EltTy.bits .f32 = 32 ∨ (Rect.block (s := S1x2) S1x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S65536x128.size a
  hwx0_5 : ∀ i : grid0.Coords, EltTy.bits .f32 = 32 ∨ (Rect.block (s := S65536x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

def gather_S22x3_S45x1_S45x3_1_0_n_n_0_1_13 : GatherDims S22x3 S45x1 S45x3 where
  offsetDims := [1]
  collapsedSliceDims := [0]
  operandBatchingDims := []
  startIndicesBatchingDims := []
  startIndexMap := [0]
  indexVectorDim := 1
  sliceSizes := ![1, 3]
  wf := gather_S22x3_S45x1_S45x3_1_0_n_n_0_1_13_wf
def dot_S1x45_S45x128_S1x128_1_0_0_1_n_n : DotDims S1x45 S45x128 S1x128 where
  lhsContracting := [1]
  rhsContracting := [0]
  lhsNonContracting := [0]
  rhsNonContracting := [1]
  lhsBatch := []
  rhsBatch := []
  wf := dot_S1x45_S45x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_v29) S1x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v46) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S22x3 : Shape := ⟨2, ![22, 3]⟩
abbrev S8388608 : Shape := ⟨1, ![8388608]⟩
abbrev S8388608x2 : Shape := ⟨2, ![8388608, 2]⟩
abbrev S45x128 : Shape := ⟨2, ![45, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S45 : Shape := ⟨1, ![45]⟩
abbrev S_ : Shape := ⟨0, ![]⟩
abbrev S45x1 : Shape := ⟨2, ![45, 1]⟩
abbrev S45x3 : Shape := ⟨2, ![45, 3]⟩
abbrev S1x45 : Shape := ⟨2, ![1, 45]⟩
abbrev S1x128 : Shape := ⟨2, ![1, 128]⟩
abbrev S1x2 : Shape := ⟨2, ![1, 2]⟩

abbrev nBuf : Space → Nat
  | .hbm => 60
  | .vmem => 0
  | .smem => 0
  | _ => 0

abbrev bufTy : (tb : Table) → Fin (tcTables nBuf tb) → BufTy
  | .hbm, ⟨0, _⟩ => ⟨S22x3, .f32⟩
  | .hbm, ⟨1, _⟩ => ⟨S8388608, .f32⟩
  | .hbm, ⟨2, _⟩ => ⟨S8388608x2, .f32⟩
  | .hbm, ⟨3, _⟩ => ⟨S8388608x2, .f32⟩
  | .hbm, ⟨4, _⟩ => ⟨S45x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S45, .i32⟩
  | .hbm, ⟨11, _⟩ => ⟨S45, .i32⟩
  | .hbm, ⟨12, _⟩ => ⟨S_, .i32⟩
  | .hbm, ⟨13, _⟩ => ⟨S45, .i32⟩
  | .hbm, ⟨14, _⟩ => ⟨S45, .i1⟩
  | .hbm, ⟨15, _⟩ => ⟨S_, .i32⟩
  | .hbm, ⟨16, _⟩ => ⟨S45, .i32⟩
  | .hbm, ⟨17, _⟩ => ⟨S45, .i32⟩
  | .hbm, ⟨18, _⟩ => ⟨S45, .i32⟩
  | .hbm, ⟨19, _⟩ => ⟨S45x1, .i32⟩
  | .hbm, ⟨20, _⟩ => ⟨S45x3, .f32⟩
  | .hbm, ⟨21, _⟩ => ⟨S_, .i32⟩
  | .hbm, ⟨22, _⟩ => ⟨S45, .i32⟩
  | .hbm, ⟨23, _⟩ => ⟨S45, .i1⟩
  | .hbm, ⟨24, _⟩ => ⟨S_, .i32⟩
  | .hbm, ⟨25, _⟩ => ⟨S45, .i32⟩
  | .hbm, ⟨26, _⟩ => ⟨S45, .i32⟩
  | .hbm, ⟨27, _⟩ => ⟨S45, .i32⟩
  | .hbm, ⟨28, _⟩ => ⟨S45x1, .i32⟩
  | .hbm, ⟨29, _⟩ => ⟨S45x3, .f32⟩
  | .hbm, ⟨30, _⟩ => ⟨S45x3, .f32⟩
  | .hbm, ⟨31, _⟩ => ⟨S45x3, .f32⟩
  | .hbm, ⟨32, _⟩ => ⟨S_, .f32⟩
  | .hbm, ⟨33, _⟩ => ⟨S45, .f32⟩
  | .hbm, ⟨34, _⟩ => ⟨S45, .f32⟩
  | .hbm, ⟨35, _⟩ => ⟨S1x45, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x2, .f32⟩
  | .hbm, ⟨45, _⟩ => ⟨S1x2, .f32⟩
  | .hbm, ⟨46, _⟩ => ⟨S1x2, .f32⟩
  | .hbm, ⟨47, _⟩ => ⟨S8388608x2, .f32⟩
  | .hbm, ⟨48, _⟩ => ⟨S8388608x2, .f32⟩
  | .hbm, ⟨49, _⟩ => ⟨S8388608x2, .f32⟩
  | .hbm, ⟨50, _⟩ => ⟨S8388608x2, .f32⟩
  | .hbm, ⟨51, _⟩ => ⟨S_, .f32⟩
  | .hbm, ⟨52, _⟩ => ⟨S8388608, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S_, .f32⟩
  | .hbm, ⟨59, _⟩ => ⟨S_, .f32⟩
  | _, _ => ⟨S22x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  bcast_S_S45 : S_.BroadcastsInDim S45 (![] : Fin 0 → Fin S45.rank)
  bcast_S45_S45x1_0 : S45.BroadcastsInDim S45x1 (![0] : Fin 1 → Fin S45x1.rank)
  reducesTo_S45x3_S45_d1 : S45x3.ReducesTo [1] S45
  h_S_ : 0 < S_.numel
  bcast_S45_S1x45_1 : S45.BroadcastsInDim S1x45 (![1] : Fin 1 → Fin S1x45.rank)
  bcast_S128_S1x128_1 : S128.BroadcastsInDim S1x128 (![1] : Fin 1 → Fin S1x128.rank)
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  reducesTo_S8388608x2_S8388608_d1 : S8388608x2.ReducesTo [1] S8388608
  bcast_S_S8388608 : S_.BroadcastsInDim S8388608 (![] : Fin 0 → Fin S8388608.rank)
  reducesTo_S8388608_S_d0 : S8388608.ReducesTo [0] S_
  gather_S22x3_S45x1_S45x3_1_0_n_n_0_1_13_wf : GatherDims.WF S22x3 S45x1 S45x3 [1] [0] [] [0] [] 1 ![1, 3]
  dot_S1x45_S45x128_S1x128_1_0_0_1_n_n_wf : DotDims.WF S1x45 S45x128 S1x128 [1] [0] [0] [1] [] []
  dot_S1x128_S128x128_S1x128_1_0_0_1_n_n_wf : DotDims.WF S1x128 S128x128 S1x128 [1] [0] [0] [1] [] []
  dot_S1x128_S128x2_S1x2_1_0_0_1_n_n_wf : DotDims.WF S1x128 S128x2 S1x2 [1] [0] [0] [1] [] []

variable [Facts₀]

def gather_S22x3_S45x1_S45x3_1_0_n_n_0_1_13 : GatherDims S22x3 S45x1 S45x3 where
  offsetDims := [1]
  collapsedSliceDims := [0]
  operandBatchingDims := []
  startIndicesBatchingDims := []
  startIndexMap := [0]
  indexVectorDim := 1
  sliceSizes := ![1, 3]
  wf := gather_S22x3_S45x1_S45x3_1_0_n_n_0_1_13_wf
def dot_S1x45_S45x128_S1x128_1_0_0_1_n_n : DotDims S1x45 S45x128 S1x128 where
  lhsContracting := [1]
  rhsContracting := [0]
  lhsNonContracting := [0]
  rhsNonContracting := [1]
  lhsBatch := []
  rhsBatch := []
  wf := dot_S1x45_S45x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

class Facts : Prop extends Facts₀ where

variable [Facts]
-- ==== Proof.Net.lean ====
/-
  The two halves of the reference's @main as named functions of the argument arrays, transcribed operation by
  operation from the printed program: `sNet` is the collective variable `s` — the 45 pair distances of the 22
  positions pushed through the 45→128→128→2 tanh network — a [1,2] array; `gaussTail` is the bias potential of
  `s`: the sum over the Gaussians of height · exp(−½ · Σₐ ((sₐ − centreₐ) / widthₐ)²). The kernel's program computes
  `s` by the same operations, so the network is carried as one function and never opened.
-/
import proofs.«119575_j49194555408957_2_alg».proof.ReferenceIdeal
import proofs.«119575_j49194555408957_2_alg».proof.Proof.Gen.ReferenceIdeal

noncomputable section

namespace Cert.ReferenceIdeal.Hand

open Cert.ReferenceIdeal Idealize.ShloMosaic
open Cert.ReferenceIdeal.Facts₀

variable {F : FTy → Type} [FloatOps F]

/-- The collective variable: pair distances of the positions through the three-layer tanh network. -/
def sNet (main_arg0 : (⟨S22x3, .f32⟩ : BufTy).Contents (Elt F)) (main_arg4 : (⟨S45x128, .f32⟩ : BufTy).Contents (Elt F)) (main_arg5 : (⟨S128, .f32⟩ : BufTy).Contents (Elt F)) (main_arg6 : (⟨S128x128, .f32⟩ : BufTy).Contents (Elt F)) (main_arg7 : (⟨S128, .f32⟩ : BufTy).Contents (Elt F)) (main_arg8 : (⟨S128x2, .f32⟩ : BufTy).Contents (Elt F)) (main_arg9 : (⟨S2, .f32⟩ : BufTy).Contents (Elt F)) : (⟨S1x2, .f32⟩ : BufTy).Contents (Elt F) :=
  let main_c : (⟨S45, .i32⟩ : BufTy).Contents (Elt F) := (fun i => lit0 (S45.rowMajor i))
  let main_c_0 : (⟨S45, .i32⟩ : BufTy).Contents (Elt F) := (fun i => lit1 (S45.rowMajor i))
  let main_c_1 : (⟨S_, .i32⟩ : BufTy).Contents (Elt F) := (constantI S_ 32 0#32)
  let main_v0 : (⟨S45, .i32⟩ : BufTy).Contents (Elt F) := (broadcastInDim S45 ![] bcast_S_S45 : (⟨S_, .i32⟩ : BufTy).Contents (Elt F) → (⟨S45, .i32⟩ : BufTy).Contents (Elt F)) main_c_1
  let main_v1 : (⟨S45, .i1⟩ : BufTy).Contents (Elt F) := (cmpi .slt : (⟨S45, .i32⟩ : BufTy).Contents (Elt F) → (⟨S45, .i32⟩ : BufTy).Contents (Elt F) → (⟨S45, .i1⟩ : BufTy).Contents (Elt F)) main_c main_v0
  let main_c_2 : (⟨S_, .i32⟩ : BufTy).Contents (Elt F) := (constantI S_ 32 22#32)
  let main_v2 : (⟨S45, .i32⟩ : BufTy).Contents (Elt F) := (broadcastInDim S45 ![] bcast_S_S45 : (⟨S_, .i32⟩ : BufTy).Contents (Elt F) → (⟨S45, .i32⟩ : BufTy).Contents (Elt F)) main_c_2
  let main_v3 : (⟨S45, .i32⟩ : BufTy).Contents (Elt F) := (addi : (⟨S45, .i32⟩ : BufTy).Contents (Elt F) → (⟨S45, .i32⟩ : BufTy).Contents (Elt F) → (⟨S45, .i32⟩ : BufTy).Contents (Elt F)) main_c main_v2
  let main_v4 : (⟨S45, .i32⟩ : BufTy).Contents (Elt F) := (select : (⟨S45, .i1⟩ : BufTy).Contents (Elt F) → (⟨S45, .i32⟩ : BufTy).Contents (Elt F) → (⟨S45, .i32⟩ : BufTy).Contents (Elt F) → (⟨S45, .i32⟩ : BufTy).Contents (Elt F)) main_v1 main_v3 main_c
  let main_v5 : (⟨S45x1, .i32⟩ : BufTy).Contents (Elt F) := (broadcastInDim S45x1 ![0] bcast_S45_S45x1_0 : (⟨S45, .i32⟩ : BufTy).Contents (Elt F) → (⟨S45x1, .i32⟩ : BufTy).Contents (Elt F)) main_v4
  let main_v6 : (⟨S45x3, .f32⟩ : BufTy).Contents (Elt F) := ((fun x i => Host.gather gather_S22x3_S45x1_S45x3_1_0_n_n_0_1_13 x i) : (⟨S22x3, .f32⟩ : BufTy).Contents (Elt F) → (⟨S45x1, .i32⟩ : BufTy).Contents (Elt F) → (⟨S45x3, .f32⟩ : BufTy).Contents (Elt F)) main_arg0 main_v5
  let main_c_3 : (⟨S_, .i32⟩ : BufTy).Contents (Elt F) := (constantI S_ 32 0#32)
  let main_v7 : (⟨S45, .i32⟩ : BufTy).Contents (Elt F) := (broadcastInDim S45 ![] bcast_S_S45 : (⟨S_, .i32⟩ : BufTy).Contents (Elt F) → (⟨S45, .i32⟩ : BufTy).Contents (Elt F)) main_c_3
  let main_v8 : (⟨S45, .i1⟩ : BufTy).Contents (Elt F) := (cmpi .slt : (⟨S45, .i32⟩ : BufTy).Contents (Elt F) → (⟨S45, .i32⟩ : BufTy).Contents (Elt F) → (⟨S45, .i1⟩ : BufTy).Contents (Elt F)) main_c_0 main_v7
  let main_c_4 : (⟨S_, .i32⟩ : BufTy).Contents (Elt F) := (constantI S_ 32 22#32)
  let main_v9 : (⟨S45, .i32⟩ : BufTy).Contents (Elt F) := (broadcastInDim S45 ![] bcast_S_S45 : (⟨S_, .i32⟩ : BufTy).Contents (Elt F) → (⟨S45, .i32⟩ : BufTy).Contents (Elt F)) main_c_4
  let main_v10 : (⟨S45, .i32⟩ : BufTy).Contents (Elt F) := (addi : (⟨S45, .i32⟩ : BufTy).Contents (Elt F) → (⟨S45, .i32⟩ : BufTy).Contents (Elt F) → (⟨S45, .i32⟩ : BufTy).Contents (Elt F)) main_c_0 main_v9
  let main_v11 : (⟨S45, .i32⟩ : BufTy).Contents (Elt F) := (select : (⟨S45, .i1⟩ : BufTy).Contents (Elt F) → (⟨S45, .i32⟩ : BufTy).Contents (Elt F) → (⟨S45, .i32⟩ : BufTy).Contents (Elt F) → (⟨S45, .i32⟩ : BufTy).Contents (Elt F)) main_v8 main_v10 main_c_0
  let main_v12 : (⟨S45x1, .i32⟩ : BufTy).Contents (Elt F) := (broadcastInDim S45x1 ![0] bcast_S45_S45x1_0 : (⟨S45, .i32⟩ : BufTy).Contents (Elt F) → (⟨S45x1, .i32⟩ : BufTy).Contents (Elt F)) main_v11
  let main_v13 : (⟨S45x3, .f32⟩ : BufTy).Contents (Elt F) := ((fun x i => Host.gather gather_S22x3_S45x1_S45x3_1_0_n_n_0_1_13 x i) : (⟨S22x3, .f32⟩ : BufTy).Contents (Elt F) → (⟨S45x1, .i32⟩ : BufTy).Contents (Elt F) → (⟨S45x3, .f32⟩ : BufTy).Contents (Elt F)) main_arg0 main_v12
  let main_v14 : (⟨S45x3, .f32⟩ : BufTy).Contents (Elt F) := (subf : (⟨S45x3, .f32⟩ : BufTy).Contents (Elt F) → (⟨S45x3, .f32⟩ : BufTy).Contents (Elt F) → (⟨S45x3, .f32⟩ : BufTy).Contents (Elt F)) main_v6 main_v13
  let main_v15 : (⟨S45x3, .f32⟩ : BufTy).Contents (Elt F) := (mulf : (⟨S45x3, .f32⟩ : BufTy).Contents (Elt F) → (⟨S45x3, .f32⟩ : BufTy).Contents (Elt F) → (⟨S45x3, .f32⟩ : BufTy).Contents (Elt F)) main_v14 main_v14
  let main_cst : (⟨S_, .f32⟩ : BufTy).Contents (Elt F) := (constant S_ .f32 0x00000000#32)
  let main_v16 : (⟨S45, .f32⟩ : BufTy).Contents (Elt F) := ((fun x v => Host.reduceAdd x v reducesTo_S45x3_S45_d1 h_S_) : (⟨S45x3, .f32⟩ : BufTy).Contents (Elt F) → (⟨S_, .f32⟩ : BufTy).Contents (Elt F) → (⟨S45, .f32⟩ : BufTy).Contents (Elt F)) main_v15 main_cst
  let main_v17 : (⟨S45, .f32⟩ : BufTy).Contents (Elt F) := (Host.sqrt : (⟨S45, .f32⟩ : BufTy).Contents (Elt F) → (⟨S45, .f32⟩ : BufTy).Contents (Elt F)) main_v16
  let main_v18 : (⟨S1x45, .f32⟩ : BufTy).Contents (Elt F) := (broadcastInDim S1x45 ![1] bcast_S45_S1x45_1 : (⟨S45, .f32⟩ : BufTy).Contents (Elt F) → (⟨S1x45, .f32⟩ : BufTy).Contents (Elt F)) main_v17
  let main_v19 : (⟨S1x128, .f32⟩ : BufTy).Contents (Elt F) := ((fun l r => Host.dotGeneral dot_S1x45_S45x128_S1x128_1_0_0_1_n_n none l r) : (⟨S1x45, .f32⟩ : BufTy).Contents (Elt F) → (⟨S45x128, .f32⟩ : BufTy).Contents (Elt F) → (⟨S1x128, .f32⟩ : BufTy).Contents (Elt F)) main_v18 main_arg4
  let main_v20 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg5
  let main_v21 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v19 main_v20
  let main_v22 : (⟨S1x128, .f32⟩ : BufTy).Contents (Elt F) := (Host.tanh : (⟨S1x128, .f32⟩ : BufTy).Contents (Elt F) → (⟨S1x128, .f32⟩ : BufTy).Contents (Elt F)) main_v21
  let main_v23 : (⟨S1x128, .f32⟩ : BufTy).Contents (Elt F) := ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)) main_v22 main_arg6
  let main_v24 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg7
  let main_v25 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v23 main_v24
  let main_v26 : (⟨S1x128, .f32⟩ : BufTy).Contents (Elt F) := (Host.tanh : (⟨S1x128, .f32⟩ : BufTy).Contents (Elt F) → (⟨S1x128, .f32⟩ : BufTy).Contents (Elt F)) main_v25
  let main_v27 : (⟨S1x2, .f32⟩ : BufTy).Contents (Elt F) := ((fun l r => Host.dotGeneral dot_S1x128_S128x2_S1x2_1_0_0_1_n_n none l r) : (⟨S1x128, .f32⟩ : BufTy).Contents (Elt F) → (⟨S128x2, .f32⟩ : BufTy).Contents (Elt F) → (⟨S1x2, .f32⟩ : BufTy).Contents (Elt F)) main_v26 main_arg8
  let main_v28 : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) main_arg9
  let main_v29 : (⟨S1x2, .f32⟩ : BufTy).Contents (Elt F) := (addf : (⟨S1x2, .f32⟩ : BufTy).Contents (Elt F) → (⟨S1x2, .f32⟩ : BufTy).Contents (Elt F) → (⟨S1x2, .f32⟩ : BufTy).Contents (Elt F)) main_v27 main_v28
  main_v29

/-- The bias potential of a given `s`: Σ over the Gaussians of height · exp(−½ · Σₐ ((sₐ − centreₐ) / widthₐ)²). -/
def gaussTail (main_v29 : (⟨S1x2, .f32⟩ : BufTy).Contents (Elt F)) (main_arg1 : (⟨S8388608, .f32⟩ : BufTy).Contents (Elt F)) (main_arg2 : (⟨S8388608x2, .f32⟩ : BufTy).Contents (Elt F)) (main_arg3 : (⟨S8388608x2, .f32⟩ : BufTy).Contents (Elt F)) : (⟨S_, .f32⟩ : BufTy).Contents (Elt F) :=
  let main_v30 : (⟨S8388608x2, .f32⟩ : BufTy).Contents (Elt F) := (broadcastInDim S8388608x2 ![0, 1] bcast_S1x2_S8388608x2_0_1 : (⟨S1x2, .f32⟩ : BufTy).Contents (Elt F) → (⟨S8388608x2, .f32⟩ : BufTy).Contents (Elt F)) main_v29
  let main_v31 : (⟨S8388608x2, .f32⟩ : BufTy).Contents (Elt F) := (subf : (⟨S8388608x2, .f32⟩ : BufTy).Contents (Elt F) → (⟨S8388608x2, .f32⟩ : BufTy).Contents (Elt F) → (⟨S8388608x2, .f32⟩ : BufTy).Contents (Elt F)) main_v30 main_arg2
  let main_v32 : (⟨S8388608x2, .f32⟩ : BufTy).Contents (Elt F) := (Host.divf : (⟨S8388608x2, .f32⟩ : BufTy).Contents (Elt F) → (⟨S8388608x2, .f32⟩ : BufTy).Contents (Elt F) → (⟨S8388608x2, .f32⟩ : BufTy).Contents (Elt F)) main_v31 main_arg3
  let main_v33 : (⟨S8388608x2, .f32⟩ : BufTy).Contents (Elt F) := (mulf : (⟨S8388608x2, .f32⟩ : BufTy).Contents (Elt F) → (⟨S8388608x2, .f32⟩ : BufTy).Contents (Elt F) → (⟨S8388608x2, .f32⟩ : BufTy).Contents (Elt F)) main_v32 main_v32
  let main_cst_5 : (⟨S_, .f32⟩ : BufTy).Contents (Elt F) := (constant S_ .f32 0x00000000#32)
  let main_v34 : (⟨S8388608, .f32⟩ : BufTy).Contents (Elt F) := ((fun x v => Host.reduceAdd x v reducesTo_S8388608x2_S8388608_d1 h_S_) : (⟨S8388608x2, .f32⟩ : BufTy).Contents (Elt F) → (⟨S_, .f32⟩ : BufTy).Contents (Elt F) → (⟨S8388608, .f32⟩ : BufTy).Contents (Elt F)) main_v33 main_cst_5
  let main_cst_6 : (⟨S_, .f32⟩ : BufTy).Contents (Elt F) := (constant S_ .f32 0xBF000000#32)
  let main_v35 : (⟨S8388608, .f32⟩ : BufTy).Contents (Elt F) := (broadcastInDim S8388608 ![] bcast_S_S8388608 : (⟨S_, .f32⟩ : BufTy).Contents (Elt F) → (⟨S8388608, .f32⟩ : BufTy).Contents (Elt F)) main_cst_6
  let main_v36 : (⟨S8388608, .f32⟩ : BufTy).Contents (Elt F) := (mulf : (⟨S8388608, .f32⟩ : BufTy).Contents (Elt F) → (⟨S8388608, .f32⟩ : BufTy).Contents (Elt F) → (⟨S8388608, .f32⟩ : BufTy).Contents (Elt F)) main_v35 main_v34
  let main_v37 : (⟨S8388608, .f32⟩ : BufTy).Contents (Elt F) := (Host.exp : (⟨S8388608, .f32⟩ : BufTy).Contents (Elt F) → (⟨S8388608, .f32⟩ : BufTy).Contents (Elt F)) main_v36
  let main_v38 : (⟨S8388608, .f32⟩ : BufTy).Contents (Elt F) := (mulf : (⟨S8388608, .f32⟩ : BufTy).Contents (Elt F) → (⟨S8388608, .f32⟩ : BufTy).Contents (Elt F) → (⟨S8388608, .f32⟩ : BufTy).Contents (Elt F)) main_arg1 main_v37
  let main_cst_7 : (⟨S_, .f32⟩ : BufTy).Contents (Elt F) := (constant S_ .f32 0x00000000#32)
  let main_v39 : (⟨S_, .f32⟩ : BufTy).Contents (Elt F) := ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)) main_v38 main_cst_7
  main_v39

end Cert.ReferenceIdeal.Hand

end
-- ==== Proof.RefRun.lean ====
/-
  The reference's @main as the list of its 50 host operations, and its run read back: every weakly fair execution
  terminates with the result at the bias potential (`gaussTail`) of the collective variable (`sNet`) of the
  arguments' launch contents, the arguments unchanged.
-/
import proofs.«119575_j49194555408957_2_alg».proof.Proof.Net
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- @main's 50 operations, in order. -/
abbrev ops : List (HloOp τ sig (Elt F)) :=
  [ nullary main_c (fun i => lit0 (S45.rowMajor i)),
    nullary main_c_0 (fun i => lit1 (S45.rowMajor i)),
    nullary main_c_1 (constantI S_ 32 0#32),
    unary main_c_1 main_v0 (broadcastInDim S45 ![] bcast_S_S45 : (⟨S_, .i32⟩ : BufTy).Contents (Elt F) → (⟨S45, .i32⟩ : BufTy).Contents (Elt F)),
    binary main_c main_v0 main_v1 (cmpi .slt : (⟨S45, .i32⟩ : BufTy).Contents (Elt F) → (⟨S45, .i32⟩ : BufTy).Contents (Elt F) → (⟨S45, .i1⟩ : BufTy).Contents (Elt F)),
    nullary main_c_2 (constantI S_ 32 22#32),
    unary main_c_2 main_v2 (broadcastInDim S45 ![] bcast_S_S45 : (⟨S_, .i32⟩ : BufTy).Contents (Elt F) → (⟨S45, .i32⟩ : BufTy).Contents (Elt F)),
    binary main_c main_v2 main_v3 (addi : (⟨S45, .i32⟩ : BufTy).Contents (Elt F) → (⟨S45, .i32⟩ : BufTy).Contents (Elt F) → (⟨S45, .i32⟩ : BufTy).Contents (Elt F)),
    ternary main_v1 main_v3 main_c main_v4 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v4 main_v5 (broadcastInDim S45x1 ![0] bcast_S45_S45x1_0 : (⟨S45, .i32⟩ : BufTy).Contents (Elt F) → (⟨S45x1, .i32⟩ : BufTy).Contents (Elt F)),
    binary main_arg0 main_v5 main_v6 ((fun x i => Host.gather gather_S22x3_S45x1_S45x3_1_0_n_n_0_1_13 x i) : (⟨S22x3, .f32⟩ : BufTy).Contents (Elt F) → (⟨S45x1, .i32⟩ : BufTy).Contents (Elt F) → (⟨S45x3, .f32⟩ : BufTy).Contents (Elt F)),
    nullary main_c_3 (constantI S_ 32 0#32),
    unary main_c_3 main_v7 (broadcastInDim S45 ![] bcast_S_S45 : (⟨S_, .i32⟩ : BufTy).Contents (Elt F) → (⟨S45, .i32⟩ : BufTy).Contents (Elt F)),
    binary main_c_0 main_v7 main_v8 (cmpi .slt : (⟨S45, .i32⟩ : BufTy).Contents (Elt F) → (⟨S45, .i32⟩ : BufTy).Contents (Elt F) → (⟨S45, .i1⟩ : BufTy).Contents (Elt F)),
    nullary main_c_4 (constantI S_ 32 22#32),
    unary main_c_4 main_v9 (broadcastInDim S45 ![] bcast_S_S45 : (⟨S_, .i32⟩ : BufTy).Contents (Elt F) → (⟨S45, .i32⟩ : BufTy).Contents (Elt F)),
    binary main_c_0 main_v9 main_v10 (addi : (⟨S45, .i32⟩ : BufTy).Contents (Elt F) → (⟨S45, .i32⟩ : BufTy).Contents (Elt F) → (⟨S45, .i32⟩ : BufTy).Contents (Elt F)),
    ternary main_v8 main_v10 main_c_0 main_v11 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v11 main_v12 (broadcastInDim S45x1 ![0] bcast_S45_S45x1_0 : (⟨S45, .i32⟩ : BufTy).Contents (Elt F) → (⟨S45x1, .i32⟩ : BufTy).Contents (Elt F)),
    binary main_arg0 main_v12 main_v13 ((fun x i => Host.gather gather_S22x3_S45x1_S45x3_1_0_n_n_0_1_13 x i) : (⟨S22x3, .f32⟩ : BufTy).Contents (Elt F) → (⟨S45x1, .i32⟩ : BufTy).Contents (Elt F) → (⟨S45x3, .f32⟩ : BufTy).Contents (Elt F)),
    binary main_v6 main_v13 main_v14 (subf : (⟨S45x3, .f32⟩ : BufTy).Contents (Elt F) → (⟨S45x3, .f32⟩ : BufTy).Contents (Elt F) → (⟨S45x3, .f32⟩ : BufTy).Contents (Elt F)),
    binary main_v14 main_v14 main_v15 (mulf : (⟨S45x3, .f32⟩ : BufTy).Contents (Elt F) → (⟨S45x3, .f32⟩ : BufTy).Contents (Elt F) → (⟨S45x3, .f32⟩ : BufTy).Contents (Elt F)),
    nullary main_cst (constant S_ .f32 0x00000000#32),
    binary main_v15 main_cst main_v16 ((fun x v => Host.reduceAdd x v reducesTo_S45x3_S45_d1 h_S_) : (⟨S45x3, .f32⟩ : BufTy).Contents (Elt F) → (⟨S_, .f32⟩ : BufTy).Contents (Elt F) → (⟨S45, .f32⟩ : BufTy).Contents (Elt F)),
    unary main_v16 main_v17 (Host.sqrt : (⟨S45, .f32⟩ : BufTy).Contents (Elt F) → (⟨S45, .f32⟩ : BufTy).Contents (Elt F)),
    unary main_v17 main_v18 (broadcastInDim S1x45 ![1] bcast_S45_S1x45_1 : (⟨S45, .f32⟩ : BufTy).Contents (Elt F) → (⟨S1x45, .f32⟩ : BufTy).Contents (Elt F)),
    binary main_v18 main_arg4 main_v19 ((fun l r => Host.dotGeneral dot_S1x45_S45x128_S1x128_1_0_0_1_n_n none l r) : (⟨S1x45, .f32⟩ : BufTy).Contents (Elt F) → (⟨S45x128, .f32⟩ : BufTy).Contents (Elt F) → (⟨S1x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    binary main_v19 main_v20 main_v21 (addf : (⟨S1x128, .f32⟩ : BufTy).Contents (Elt F) → (⟨S1x128, .f32⟩ : BufTy).Contents (Elt F) → (⟨S1x128, .f32⟩ : BufTy).Contents (Elt F)),
    unary main_v21 main_v22 (Host.tanh : (⟨S1x128, .f32⟩ : BufTy).Contents (Elt F) → (⟨S1x128, .f32⟩ : BufTy).Contents (Elt F)),
    binary main_v22 main_arg6 main_v23 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg7 main_v24 (broadcastInDim S1x128 ![1] bcast_S128_S1x128_1 : (⟨S128, .f32⟩ : BufTy).Contents (Elt F) → (⟨S1x128, .f32⟩ : BufTy).Contents (Elt F)),
    binary main_v23 main_v24 main_v25 (addf : (⟨S1x128, .f32⟩ : BufTy).Contents (Elt F) → (⟨S1x128, .f32⟩ : BufTy).Contents (Elt F) → (⟨S1x128, .f32⟩ : BufTy).Contents (Elt F)),
    unary main_v25 main_v26 (Host.tanh : (⟨S1x128, .f32⟩ : BufTy).Contents (Elt F) → (⟨S1x128, .f32⟩ : BufTy).Contents (Elt F)),
    binary main_v26 main_arg8 main_v27 ((fun l r => Host.dotGeneral dot_S1x128_S128x2_S1x2_1_0_0_1_n_n none l r) : (⟨S1x128, .f32⟩ : BufTy).Contents (Elt F) → (⟨S128x2, .f32⟩ : BufTy).Contents (Elt F) → (⟨S1x2, .f32⟩ : BufTy).Contents (Elt F)),
    unary main_arg9 main_v28 (broadcastInDim S1x2 ![1] bcast_S2_S1x2_1 : (⟨S2, .f32⟩ : BufTy).Contents (Elt F) → (⟨S1x2, .f32⟩ : BufTy).Contents (Elt F)),
    binary main_v27 main_v28 main_v29 (addf : (⟨S1x2, .f32⟩ : BufTy).Contents (Elt F) → (⟨S1x2, .f32⟩ : BufTy).Contents (Elt F) → (⟨S1x2, .f32⟩ : BufTy).Contents (Elt F)),
    unary main_v29 main_v30 (broadcastInDim S8388608x2 ![0, 1] bcast_S1x2_S8388608x2_0_1 : (⟨S1x2, .f32⟩ : BufTy).Contents (Elt F) → (⟨S8388608x2, .f32⟩ : BufTy).Contents (Elt F)),
    binary main_v30 main_arg2 main_v31 (subf : (⟨S8388608x2, .f32⟩ : BufTy).Contents (Elt F) → (⟨S8388608x2, .f32⟩ : BufTy).Contents (Elt F) → (⟨S8388608x2, .f32⟩ : BufTy).Contents (Elt F)),
    binary main_v31 main_arg3 main_v32 (Host.divf : (⟨S8388608x2, .f32⟩ : BufTy).Contents (Elt F) → (⟨S8388608x2, .f32⟩ : BufTy).Contents (Elt F) → (⟨S8388608x2, .f32⟩ : BufTy).Contents (Elt F)),
    binary main_v32 main_v32 main_v33 (mulf : (⟨S8388608x2, .f32⟩ : BufTy).Contents (Elt F) → (⟨S8388608x2, .f32⟩ : BufTy).Contents (Elt F) → (⟨S8388608x2, .f32⟩ : BufTy).Contents (Elt F)),
    nullary main_cst_5 (constant S_ .f32 0x00000000#32),
    binary main_v33 main_cst_5 main_v34 ((fun x v => Host.reduceAdd x v reducesTo_S8388608x2_S8388608_d1 h_S_) : (⟨S8388608x2, .f32⟩ : BufTy).Contents (Elt F) → (⟨S_, .f32⟩ : BufTy).Contents (Elt F) → (⟨S8388608, .f32⟩ : BufTy).Contents (Elt F)),
    nullary main_cst_6 (constant S_ .f32 0xBF000000#32),
    unary main_cst_6 main_v35 (broadcastInDim S8388608 ![] bcast_S_S8388608 : (⟨S_, .f32⟩ : BufTy).Contents (Elt F) → (⟨S8388608, .f32⟩ : BufTy).Contents (Elt F)),
    binary main_v35 main_v34 main_v36 (mulf : (⟨S8388608, .f32⟩ : BufTy).Contents (Elt F) → (⟨S8388608, .f32⟩ : BufTy).Contents (Elt F) → (⟨S8388608, .f32⟩ : BufTy).Contents (Elt F)),
    unary main_v36 main_v37 (Host.exp : (⟨S8388608, .f32⟩ : BufTy).Contents (Elt F) → (⟨S8388608, .f32⟩ : BufTy).Contents (Elt F)),
    binary main_arg1 main_v37 main_v38 (mulf : (⟨S8388608, .f32⟩ : BufTy).Contents (Elt F) → (⟨S8388608, .f32⟩ : BufTy).Contents (Elt F) → (⟨S8388608, .f32⟩ : BufTy).Contents (Elt F)),
    nullary main_cst_7 (constant S_ .f32 0x00000000#32),
    binary main_v38 main_cst_7 main_v39 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub ..⟩

set_option maxRecDepth 8192 in
set_option maxHeartbeats 2000000 in
/-- On every device, from any memory with zero counters: every weakly fair execution of @main terminates with
    the result at the bias potential of the collective variable of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
          = gaussTail (sNet (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
              (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v39).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp)⟩)
    (run_seq scopedRefs_eq scopedSems_eq defs main (fun _ => ops) main_eq (fun _ => ops_sub) m ρ)

end Cert.ReferenceIdeal.Hand

end
-- ==== Proof.Potential.lean ====
/-
  The Gaussian bias potential as ONE function of the arrays, in the two arrangements the programs use, and the
  laws that join them.

  A Gaussian g has a height h g, a centre (cx g, cy g) and widths (wx g, wy g); at the collective variable
  (s0, s1) it contributes  h · exp(−½ · (zx² + zy²)).  The reference takes z as the QUOTIENT (s − centre) / width
  (`quotBump`); the kernel multiplies (s − centre) by a reciprocal width computed beforehand, u = 1 / width
  (`bump` at u).  On the extended reals x / w = x · w⁻¹ = x · (1 / w) for every w ≠ 0 (also for w = ±∞, where both
  sides are 0), and that is the only place the two differ: at w = 0 the quotient 0 / 0 is ⊥ while 0 · (1 / 0) = 0 · ⊤ = 0.

  The reference sums the 8388608 contributions in one sum started from 0.  The kernel walks 32 tiles of
  2048 rows × 128 lanes (Gaussian number = (tile · 2048 + row) · 128 + lane), sums each tile over lanes then rows,
  adds the tile's sum to an accumulator that is reset to 0 at tiles 0 and 16, and finally adds the accumulator's
  values after tile 15 and after tile 31 (`accum`).  Addition of extended reals is commutative and associative
  (⊤ + ⊥ = ⊥ included), so the regrouping needs no finiteness.
-/
import Idealize.ShloMosaic.PureOps.Ideal
import Idealize.ShloMosaic.Lib.ValueIdx

noncomputable section

open scoped BigOperators

namespace Cert.Potential

open Idealize.ShloMosaic Idealize.ShloMosaic.ValueIdx

/-- The factor −½, kept as the printed word (both programs carry the same word; it is never evaluated). -/
abbrev negHalf : EReal := Ideal.ofBits .f32 0xBF000000#32

/-- One Gaussian's contribution with the scaled offsets formed as PRODUCTS with given factors `ux`, `uy`. -/
def bump (s0 s1 h cx cy ux uy : EReal) : EReal :=
  h * Ideal.exp (negHalf * ((s0 - cx) * ux * ((s0 - cx) * ux) + (s1 - cy) * uy * ((s1 - cy) * uy)))

/-- One Gaussian's contribution with the scaled offsets formed as QUOTIENTS by the widths. -/
def quotBump (s0 s1 h cx cy wx wy : EReal) : EReal :=
  h * Ideal.exp (negHalf * (Ideal.div (s0 - cx) wx * Ideal.div (s0 - cx) wx
    + Ideal.div (s1 - cy) wy * Ideal.div (s1 - cy) wy))

/-- Off zero, a quotient is the product with the reciprocal. -/
theorem div_eq_mul_recip (x : EReal) {w : EReal} (hw : w ≠ 0) : Ideal.div x w = x * Ideal.div 1 w := by
  unfold Ideal.div
  rw [if_neg hw, if_neg hw, one_mul]

/-- With both widths off zero the two forms of a contribution agree. -/
theorem quotBump_eq_bump (s0 s1 h cx cy : EReal) {wx wy : EReal} (hx : wx ≠ 0) (hy : wy ≠ 0) :
    quotBump s0 s1 h cx cy wx wy = bump s0 s1 h cx cy (Ideal.div 1 wx) (Ideal.div 1 wy) := by
  unfold quotBump bump
  rw [div_eq_mul_recip (s0 - cx) hx, div_eq_mul_recip (s1 - cy) hy]

/-- The heights, a [8388608] array. -/
abbrev Arr1 : Type := (⟨1, ![8388608]⟩ : Shape).Idx → EReal
/-- The centres or the widths, a [8388608, 2] array. -/
abbrev Arr2 : Type := (⟨2, ![8388608, 2]⟩ : Shape).Idx → EReal
/-- The collective variable, a [1, 2] array. -/
abbrev Row2 : Type := (⟨2, ![1, 2]⟩ : Shape).Idx → EReal

/-- THE RESULT both programs compute: 0 plus the sum over the Gaussians of the quotient form. -/
def total (s : Row2) (h : Arr1) (cen wid : Arr2) : EReal :=
  0 + ∑ g : Fin 8388608, quotBump (s (ix2 (0 : Fin 1) (0 : Fin 2))) (s (ix2 (0 : Fin 1) (1 : Fin 2))) (h (ix1 g))
    (cen (ix2 g (0 : Fin 2))) (cen (ix2 g (1 : Fin 2))) (wid (ix2 g (0 : Fin 2))) (wid (ix2 g (1 : Fin 2)))

/-- Gaussian number `k`'s contribution in the kernel's arrangement (product with the reciprocal width), as a
    function of the plain number `k` (0 beyond the last Gaussian, which no tile reaches). -/
def kterm (s : Row2) (h : Arr1) (cen wid : Arr2) (k : ℕ) : EReal :=
  if hk : k < 8388608 then
    bump (s (ix2 (0 : Fin 1) (0 : Fin 2))) (s (ix2 (0 : Fin 1) (1 : Fin 2))) (h (ix1 ⟨k, hk⟩))
      (cen (ix2 (⟨k, hk⟩ : Fin 8388608) (0 : Fin 2))) (cen (ix2 (⟨k, hk⟩ : Fin 8388608) (1 : Fin 2)))
      (Ideal.div 1 (wid (ix2 (⟨k, hk⟩ : Fin 8388608) (0 : Fin 2)))) (Ideal.div 1 (wid (ix2 (⟨k, hk⟩ : Fin 8388608) (1 : Fin 2))))
  else 0

/-- Tile `n`'s sum: over its 2048 rows, of the sum over the row's 128 lanes. -/
def tileSum (f : ℕ → EReal) (n : ℕ) : EReal :=
  ∑ r : Fin 2048, ∑ l : Fin 128, f ((n * 2048 + r.val) * 128 + l.val)

/-- The accumulator after tile `n`: reset to 0 at the first tile of each half (n = 0, 16), else carried. -/
def accum (f : ℕ → EReal) : ℕ → EReal
  | 0 => 0 + tileSum f 0
  | n + 1 => (if (n + 1) % 16 = 0 then 0 else accum f n) + tileSum f (n + 1)

/-- A sum over the first a·b numbers, read block by block: a blocks of b consecutive numbers. -/
theorem sum_range_mul_block {M : Type*} [AddCommMonoid M] (F : ℕ → M) (a b : ℕ) :
    ∑ k ∈ Finset.range (a * b), F k = ∑ i ∈ Finset.range a, ∑ j ∈ Finset.range b, F (i * b + j) := by
  induction a with
  | zero => simp
  | succ a ih => rw [add_one_mul, Finset.sum_range_add, ih, Finset.sum_range_succ]

/-- A tile's sum with rows and lanes as plain numbers. -/
theorem tileSum_eq_range (f : ℕ → EReal) (n : ℕ) :
    tileSum f n = ∑ r ∈ Finset.range 2048, ∑ l ∈ Finset.range 128, f ((n * 2048 + r) * 128 + l) := by
  unfold tileSum
  rw [← Fin.sum_univ_eq_sum_range (fun r => ∑ l ∈ Finset.range 128, f ((n * 2048 + r) * 128 + l)) 2048]
  refine Finset.sum_congr rfl (fun r _ => ?_)
  exact Fin.sum_univ_eq_sum_range (fun l => f ((n * 2048 + r.val) * 128 + l)) 128

/-- The sum over the first 32 · 2048 · 128 numbers is the sum of the 32 tiles' sums. -/
theorem sum_tiles (f : ℕ → EReal) :
    ∑ k ∈ Finset.range (32 * 2048 * 128), f k = ∑ n ∈ Finset.range 32, tileSum f n := by
  rw [sum_range_mul_block f (32 * 2048) 128,
    sum_range_mul_block (fun m => ∑ l ∈ Finset.range 128, f (m * 128 + l)) 32 2048]
  exact Finset.sum_congr rfl (fun n _ => (tileSum_eq_range f n).symm)

/-- At the first tile of a half the accumulator is that tile's sum. -/
theorem accum_base (f : ℕ → EReal) (b : ℕ) (hb : b % 16 = 0) : accum f b = tileSum f b := by
  cases b with
  | zero => rw [accum, zero_add]
  | succ b => rw [accum, if_pos hb, zero_add]

/-- Within a half that starts at tile b, the accumulator after tile b + n is the sum of the tiles b, …, b + n. -/
theorem accum_block (f : ℕ → EReal) (b : ℕ) (hb : b % 16 = 0) (n : ℕ) (hn : n < 16) :
    accum f (b + n) = ∑ k ∈ Finset.range (n + 1), tileSum f (b + k) := by
  induction n with
  | zero => rw [Finset.sum_range_one, Nat.add_zero, accum_base f b hb]
  | succ n ih =>
    have hne : ¬ ((b + n + 1) % 16 = 0) := by omega
    rw [Finset.sum_range_succ, ← ih (by omega)]
    show accum f (b + n + 1) = _
    rw [accum, if_neg hne, Nat.add_assoc b n 1]

/-- The two halves' accumulators add up to the one sum over all 8388608 numbers. -/
theorem accum_pair (f : ℕ → EReal) : accum f 15 + accum f 31 = 0 + ∑ g : Fin 8388608, f g.val := by
  have h1 : accum f 15 = ∑ k ∈ Finset.range 16, tileSum f k := by
    have h := accum_block f 0 (by norm_num) 15 (by norm_num)
    simp only [Nat.zero_add] at h
    exact h
  have h2 : accum f 31 = ∑ k ∈ Finset.range 16, tileSum f (16 + k) := accum_block f 16 (by norm_num) 15 (by norm_num)
  have h3 : ∑ g : Fin 8388608, f g.val = ∑ k ∈ Finset.range (32 * 2048 * 128), f k := by
    rw [Fin.sum_univ_eq_sum_range f 8388608]
  rw [h1, h2, h3, sum_tiles, zero_add, ← Finset.sum_range_add (fun k => tileSum f k) 16 16]

/-- The kernel's arrangement is the result, when no width is zero. -/
theorem kernel_total (s : Row2) (h : Arr1) (cen wid : Arr2)
    (hw : ∀ (g : Fin 8388608) (a : Fin 2), wid (ix2 g a) ≠ 0) :
    accum (kterm s h cen wid) 15 + accum (kterm s h cen wid) 31 = total s h cen wid := by
  rw [accum_pair]
  unfold total
  refine congrArg (fun x => 0 + x) (Finset.sum_congr rfl (fun g _ => ?_))
  rw [quotBump_eq_bump _ _ _ _ _ (hw g 0) (hw g 1)]
  unfold kterm
  rw [dif_pos g.isLt]

end Cert.Potential

end
-- ==== Proof.RefValue.lean ====
/-
  The reference's last thirteen operations compute the bias potential `Cert.Potential.total`.

  Read at the extended reals every operation is the textbook one at each index. The row s = (s₀, s₁), broadcast
  down the 8388608 Gaussians, reads sₐ at (g, a) whatever g; the difference with the centre, the quotient by the
  width and the square are taken element by element; the sum over the axis a ∈ {0, 1}, started from 0, is
  z₀ · z₀ + z₁ · z₁; the scalar −½, broadcast over the Gaussians, reads −½ at each; the exponential and the product
  with the height are element by element; and the last sum, over the one remaining axis and started from 0, is
  0 + Σ over g of the contributions. Term by term that is `total`: no law of arithmetic is used beyond 0 + x = x
  for the inner sum's starting value, so nothing is asked of the arrays (no finiteness, no width off zero).
-/
import proofs.«119575_j49194555408957_2_alg».proof.Proof.Net
import proofs.«119575_j49194555408957_2_alg».proof.Proof.Potential
import Idealize.ShloMosaic.Lib.ValueIdx
import Idealize.ShloMosaic.Lib.IdealHost
import Idealize.ShloMosaic.Lib.KernelVsHost
import Idealize.ShloMosaic.PureOps.Ideal.Laws

noncomputable section

open scoped BigOperators

namespace Cert.ReferenceIdeal.Hand

open Cert.ReferenceIdeal Idealize.ShloMosaic Idealize.ShloMosaic.ValueIdx

namespace RefValue

/-- A rank-1 index set is its one coordinate's range … -/
def idxEquiv1 {n : Nat} : (⟨1, ![n]⟩ : Shape).Idx ≃ Fin n where
  toFun i := i 0
  invFun g := ix1 g
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ g : Fin n, f (ix1 g) := by
  rw [← Equiv.sum_comp (idxEquiv1 (n := n)).symm f]
  rfl

/-- Gaussian `g` with the coordinate `k` inserted on the summed axis is the index (g, k). -/
theorem lift_inner (h : S8388608x2.Reduces [1] S8388608) (g : Fin 8388608) (k : Fin 2) :
    h.lift (ix1 g) k = ix2 g k := by
  funext c
  match c with
  | ⟨0, _⟩ => exact Fin.ext rfl
  | ⟨1, _⟩ => exact Fin.ext rfl

/-- The host's exponential at an index is the exponential of the element. -/
theorem hostExp_apply {s : Shape} {φ : FTy} (x : FVec Ideal s φ) (i : s.Idx) : Host.exp x i = Ideal.exp (x i) := rfl

/-- The squared scaled offset of Gaussian `g` on axis `a`: the row `s` is read at (0, a) whatever `g`. -/
theorem sqQuot_apply (hb : S1x2.BroadcastsInDim S8388608x2 (![0, 1] : Fin 2 → Fin S8388608x2.rank))
    (s : FVec Ideal S1x2 .f32) (a2 a3 : FVec Ideal S8388608x2 .f32) (g : Fin 8388608) (a : Fin 2) :
    mulf (Host.divf (F := Ideal) (subf (broadcastInDim S8388608x2 ![0, 1] hb s) a2) a3)
        (Host.divf (F := Ideal) (subf (broadcastInDim S8388608x2 ![0, 1] hb s) a2) a3) (ix2 g a)
      = Ideal.div (s (ix2 (0 : Fin 1) a) - a2 (ix2 g a)) (a3 (ix2 g a))
        * Ideal.div (s (ix2 (0 : Fin 1) a) - a2 (ix2 g a)) (a3 (ix2 g a)) := by
  rw [mulf_apply, hostDivf_apply, subf_apply, broadcastInDim_oneRow_apply]

end RefValue

open RefValue

/-- THE REFERENCE'S VALUE: at every index of its (rank-0) result the bias potential of `s` is `total`. -/
theorem gaussTail_eq (s : (⟨S1x2, .f32⟩ : BufTy).Contents (Elt Ideal)) (a1 : (⟨S8388608, .f32⟩ : BufTy).Contents (Elt Ideal))
    (a2 a3 : (⟨S8388608x2, .f32⟩ : BufTy).Contents (Elt Ideal)) :
    gaussTail (F := Ideal) s a1 a2 a3 = fun _ => Cert.Potential.total s a1 a2 a3 := by
  have hR : S8388608x2.Reduces [1] S8388608 := by decide
  funext i
  unfold gaussTail
  dsimp only
  -- the outer sum, into the shape with no axis: its starting value plus the sum over every Gaussian
  refine (Ideal.hostReduceAdd_total _ (fun b => b.elim0) _ _ i).trans ?_
  rw [sum_idx1]
  unfold Cert.Potential.total
  refine congrArg₂ (· + ·) Ideal.ofBits_zero_f32 (Finset.sum_congr rfl fun g _ => ?_)
  -- one Gaussian's contribution: height · exp(−½ · (z₀ · z₀ + z₁ · z₁))
  unfold Cert.Potential.quotBump
  refine (mulf_apply _ _ _).trans (congrArg (a1 (ix1 g) * ·) ?_)
  refine (hostExp_apply _ _).trans (congrArg Ideal.exp ?_)
  refine (mulf_apply _ _ _).trans (congrArg₂ (· * ·) (broadcastInDim_scalar_apply _ _ _) ?_)
  -- the inner sum over the two axes, started from 0
  refine (Ideal.hostReduceAdd_single _ hR _ _ (ix1 g)).trans ?_
  refine (congrArg₂ (· + ·) Ideal.ofBits_zero_f32 (Fin.sum_univ_two _)).trans ?_
  rw [zero_add, lift_inner, lift_inner]
  exact congrArg₂ (· + ·) (sqQuot_apply _ s a2 a3 g 0) (sqQuot_apply _ s a2 a3 g 1)

end Cert.ReferenceIdeal.Hand

end
-- ==== Proof.KCases.lean ====
/-
  What the kernel's body leaves behind at one grid point, read as values.

  The body keeps a running total in a [1,1] scratch accumulator. At every point it loads the collective variable
  `s` (a [1,2] block), one [2048,128] tile each of the heights, the two centre coordinates and the two reciprocal
  widths, forms the tile's sum of  height · exp(−½·(zx² + zy²)),  adds it to the accumulator and stores the
  accumulator back (`step`). At the first tile of a half (tile ≡ 0 mod 16) the accumulator is first set to zero;
  at the last tile of a half (tile ≡ 15 mod 16) the new accumulator's one entry is also spread over the half's
  [1,8,128] output block.

  The three lemmas per case below say exactly that: whatever stores the run found, the scratch ends at `step` of
  the point's blocks and of the accumulator it started from (zero in the first case), and in the last case the output
  block ends at the spread of that same value.
-/
import proofs.«119575_j49194555408957_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's update of the accumulator: the accumulator `acc` plus the tile's sum, from the point's blocks —
    `s`, heights `h`, centres `cx`, `cy`, reciprocal widths `ux`, `uy`. -/
abbrev step (s : Vec F S1x2 .f32) (h cx cy ux uy : Vec F S2048x128 .f32) (acc : Vec F S1x1 .f32) : Vec F S1x1 .f32 :=
  k0_pay1 (k0_pay4 s cx cy ux uy h acc)

/-- A middle tile of a half: the scratch, found at `xs0`, ends at `step … xs0`. -/
theorem scratch_mid (c : Dev nD) (i : grid0.Coords) (arg2 : Memref sig .tc .vmem S1x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x8x128 .f32) (harg8 : arg8.IsWhole) (arg9 : Memref sig .tc .vmem S1x1 .f32) (harg9 : arg9.IsWhole) (hc0 : ¬cond0_0 i) (hc1 : ¬cond0_1 i) (x0 : Vec F S1x2 .f32) (x1 : Vec F S2048x128 .f32) (x2 : Vec F S2048x128 .f32) (x3 : Vec F S2048x128 .f32) (x4 : Vec F S2048x128 .f32) (x5 : Vec F S2048x128 .f32) (xs0 : Vec F S1x1 .f32) :
    sout0_B_0 c i arg2 harg2 arg3 harg3 arg4 harg4 arg5 harg5 arg6 harg6 arg7 harg7 arg8 harg8 arg9 harg9 hc0 hc1 x0 x1 x2 x3 x4 x5 xs0 = step x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg9.read_unread, View.ld_unit_zero (S := S1x2) hz2, View.ld_unit_zero (S := S2048x128) hz2,
    View.ld_unit_zero (S := S1x1) hz2]

/-- The last tile of a half: the scratch ends at `step … xs0` as in the middle, -/
theorem scratch_last (c : Dev nD) (i : grid0.Coords) (arg2 : Memref sig .tc .vmem S1x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x8x128 .f32) (harg8 : arg8.IsWhole) (arg9 : Memref sig .tc .vmem S1x1 .f32) (harg9 : arg9.IsWhole) (hc0 : ¬cond0_0 i) (hc1 : cond0_1 i) (x0 : Vec F S1x2 .f32) (x1 : Vec F S2048x128 .f32) (x2 : Vec F S2048x128 .f32) (x3 : Vec F S2048x128 .f32) (x4 : Vec F S2048x128 .f32) (x5 : Vec F S2048x128 .f32) (xs0 : Vec F S1x1 .f32) :
    sout0_C_0 c i arg2 harg2 arg3 harg3 arg4 harg4 arg5 harg5 arg6 harg6 arg7 harg7 arg8 harg8 arg9 harg9 hc0 hc1 x0 x1 x2 x3 x4 x5 xs0 = step x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg9.read_unread, View.ld_unit_zero (S := S1x2) hz2, View.ld_unit_zero (S := S2048x128) hz2,
    View.ld_unit_zero (S := S1x1) hz2]

/-- and the half's output block ends at the spread of that value's one entry. -/
theorem out_last (c : Dev nD) (i : grid0.Coords) (arg2 : Memref sig .tc .vmem S1x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x8x128 .f32) (harg8 : arg8.IsWhole) (arg9 : Memref sig .tc .vmem S1x1 .f32) (harg9 : arg9.IsWhole) (hc0 : ¬cond0_0 i) (hc1 : cond0_1 i) (x0 : Vec F S1x2 .f32) (x1 : Vec F S2048x128 .f32) (x2 : Vec F S2048x128 .f32) (x3 : Vec F S2048x128 .f32) (x4 : Vec F S2048x128 .f32) (x5 : Vec F S2048x128 .f32) (xs0 : Vec F S1x1 .f32) :
    out0_C_6 c i arg2 harg2 arg3 harg3 arg4 harg4 arg5 harg5 arg6 harg6 arg7 harg7 arg8 harg8 arg9 harg9 hc0 hc1 x0 x1 x2 x3 x4 x5 xs0 = k0_pay2 (step x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread,
    harg7.read_unread, harg9.read_unread, View.ld_unit_zero (S := S1x2) hz2, View.ld_unit_zero (S := S2048x128) hz2,
    View.ld_unit_zero (S := S1x1) hz2]

/-- The first tile of a half: the accumulator is set to zero (`k0_pay3`), read back, and the scratch ends at
    `step` from that zero. -/
theorem scratch_first (c : Dev nD) (i : grid0.Coords) (arg2 : Memref sig .tc .vmem S1x2 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x8x128 .f32) (harg8 : arg8.IsWhole) (arg9 : Memref sig .tc .vmem S1x1 .f32) (harg9 : arg9.IsWhole) (hc0 : cond0_0 i) (hc1 : ¬cond0_1 i) (x0 : Vec F S1x2 .f32) (x1 : Vec F S2048x128 .f32) (x2 : Vec F S2048x128 .f32) (x3 : Vec F S2048x128 .f32) (x4 : Vec F S2048x128 .f32) (x5 : Vec F S2048x128 .f32) :
    sout0_A_0 c i arg2 harg2 arg3 harg3 arg4 harg4 arg5 harg5 arg6 harg6 arg7 harg7 arg8 harg8 arg9 harg9 hc0 hc1 x0 x1 x2 x3 x4 x5 = step x0 x1 x2 x3 x4 x5 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread,
    harg7.read_unread, harg9.read_unread, View.ld_unit_zero (S := S1x2) hz2, View.ld_unit_zero (S := S2048x128) hz2,
    View.ld_unit_zero (S := S1x1) hz2]

end Cert.KernelIdeal.Hand

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.KStep.lean ====
/-
  One point's update of the accumulator, read on the extended reals.

  The body's arithmetic at a grid point is: from the [1,2] block `s` take s0 = s[0,0] and s1 = s[0,1]; on the
  [2048,128] tiles form, entry by entry,  h · exp(−½ · (((s0 − cx)·ux)² + ((s1 − cy)·uy)²))  (`Cert.Potential.bump`);
  sum each row over its 128 lanes, then the 2048 row sums (both reductions start from the neutral word, so at the
  extended reals they are plain sums); add the result to the accumulator's one entry.
-/
import proofs.«119575_j49194555408957_2_alg».proof.Proof.KCases
import proofs.«119575_j49194555408957_2_alg».proof.Proof.LibColumn
import proofs.«119575_j49194555408957_2_alg».proof.Proof.Potential
import Idealize.ShloMosaic.Lib.ValueIdx
import Idealize.ShloMosaic.PureOps.Ideal.Laws

noncomputable section

open Idealize.ShloMosaic Idealize.ShloMosaic.ValueIdx

namespace Cert.KernelIdeal.Hand

open Cert.KernelIdeal Cert.KernelIdeal.Gen

/-- The sum of an [a, 1] column along its first axis, on the extended reals, is the sum of its entries (the
    accumulator word is the neutral one, zero). -/
theorem sum_first_col_apply {a : ℕ} (x : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ x 0x00000000#32 h hφ hacc (ix1 u) = ∑ r : Fin a, x (ix2 r u) := by
  refine (Ideal.multiReduction_add_single x 0x00000000#32 h hφ hacc (ix1 u)).trans ?_
  show ∑ r : Fin a, x (h.lift (ix1 u) r) = ∑ r : Fin a, x (ix2 r u)
  refine Finset.sum_congr rfl fun r _ => congrArg x (funext fun c => Fin.ext ?_)
  match c with
  | ⟨0, _⟩ => rfl
  | ⟨1, _⟩ => rfl

/-- The first entry of the [1,2] block, as the body extracts it. -/
theorem s0_eq (s : (⟨2, ![1, 2]⟩ : Shape).Idx → EReal) (h1 : (⟨2, ![1, 2]⟩ : Shape).Slices ![0, 0] ⟨2, ![1, 1]⟩)
    (h2 : ∀ a, (![0, 0] : Fin 2 → Nat) a < (⟨2, ![1, 1]⟩ : Shape).size a) :
    extractAt ![0, 0] (extractStridedSlice ⟨2, ![1, 1]⟩ ![0, 0] s h1) h2 = s (ix2 (0 : Fin 1) (0 : Fin 2)) := by
  unfold extractAt extractStridedSlice
  refine congrArg s (funext fun a => Fin.ext ?_)
  match a with
  | ⟨0, _⟩ => rfl
  | ⟨1, _⟩ => rfl

/-- The second entry of the [1,2] block, as the body extracts it. -/
theorem s1_eq (s : (⟨2, ![1, 2]⟩ : Shape).Idx → EReal) (h1 : (⟨2, ![1, 2]⟩ : Shape).Slices ![0, 1] ⟨2, ![1, 1]⟩)
    (h2 : ∀ a, (![0, 0] : Fin 2 → Nat) a < (⟨2, ![1, 1]⟩ : Shape).size a) :
    extractAt ![0, 0] (extractStridedSlice ⟨2, ![1, 1]⟩ ![0, 1] s h1) h2 = s (ix2 (0 : Fin 1) (1 : Fin 2)) := by
  unfold extractAt extractStridedSlice
  refine congrArg s (funext fun a => Fin.ext ?_)
  match a with
  | ⟨0, _⟩ => rfl
  | ⟨1, _⟩ => rfl

/-- One point's update at the accumulator's entry: the entry plus the tile's double sum of contributions. -/
theorem step_apply (s : Vec Ideal S1x2 .f32) (h cx cy ux uy : Vec Ideal S2048x128 .f32) (acc : Vec Ideal S1x1 .f32)
    (j : S1x1.Idx) :
    step s h cx cy ux uy acc j = acc j + ∑ r : Fin 2048, ∑ l : Fin 128,
      Cert.Potential.bump (s (ix2 (0 : Fin 1) (0 : Fin 2))) (s (ix2 (0 : Fin 1) (1 : Fin 2))) (h (ix2 r l))
        (cx (ix2 r l)) (cy (ix2 r l)) (ux (ix2 r l)) (uy (ix2 r l)) := by
  obtain ⟨p, q, rfl⟩ : ∃ (p : Fin 1) (q : Fin 1), j = ix2 p q := ⟨j 0, j 1, eq_ix2 j⟩
  show k0_pay1 (k0_pay4 s cx cy ux uy h acc) (ix2 p q) = _
  unfold k0_pay1 k0_pay4
  dsimp only
  rw [shapeCast_self]
  refine (addf_apply _ _ _).trans ?_
  refine congrArg (fun t => acc (ix2 p q) + t) ?_
  refine (Cert.LibColumn.shapeCast_a_a1_apply _ _ p q).trans ?_
  refine (sum_first_col_apply _ _ (.inl rfl) rfl p).trans ?_
  refine Finset.sum_congr rfl fun r _ => ?_
  refine (Cert.LibColumn.shapeCast_a_a1_apply _ _ r p).trans ?_
  refine (Cert.LibColumn.sum_last_apply _ _ (.inl rfl) rfl r).trans ?_
  refine Finset.sum_congr rfl fun l _ => ?_
  simp only [shapeCast_self, s0_eq, s1_eq]
  rfl

end Cert.KernelIdeal.Hand

end
-- ==== Proof.KBlocks.lean ====
/-
  What the kernel's windows read at a grid point.

  Grid point t (t = 16·core + tile, 32 points) reads, from each of the five [65536,128] arrays, the block of rows
  t·2048 … t·2048 + 2047: every index map sends the point (core, tile) to block row 16·core + tile = t, column
  block 0. Entry (r, l) of the block is therefore entry (t·2048 + r, l) of the array. The [1,2] array `s` is read
  whole at every point.
-/
import proofs.«119575_j49194555408957_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]
variable (m : (ℓ : Loc nD τ sig) → Buf (Elt F) ℓ)

/-- Row t·2048 + r of the [65536,128] arrays: row r of grid point t's block. -/
def tileRow (t : Fin cfg0.N) (r : Fin 2048) : Fin 65536 :=
  ⟨t.val * 2048 + r.val, by have hN : cfg0.N = 32 := N_0; have := t.isLt; have := r.isLt; omega⟩

theorem tileRow_val (t : Fin cfg0.N) (r : Fin 2048) : (tileRow t r).val = t.val * 2048 + r.val := rfl

/-- The [1,2] array's one block is at index (0, 0) at every point. -/
theorem index_s : ∀ t : Fin cfg0.N, win0_0.index t 0 = 0 ∧ win0_0.index t 1 = 0 :=
  (by decide +kernel : ∀ t : Fin grid0.N, win0_0.index t 0 = 0 ∧ win0_0.index t 1 = 0)
/-- Window 1's block at point t is block row t, column block 0. -/
theorem index_1 : ∀ t : Fin cfg0.N, win0_1.index t 0 = t.val ∧ win0_1.index t 1 = 0 :=
  (by decide +kernel : ∀ t : Fin grid0.N, win0_1.index t 0 = t.val ∧ win0_1.index t 1 = 0)
/-- Window 2's block at point t is block row t, column block 0. -/
theorem index_2 : ∀ t : Fin cfg0.N, win0_2.index t 0 = t.val ∧ win0_2.index t 1 = 0 :=
  (by decide +kernel : ∀ t : Fin grid0.N, win0_2.index t 0 = t.val ∧ win0_2.index t 1 = 0)
/-- Window 3's block at point t is block row t, column block 0. -/
theorem index_3 : ∀ t : Fin cfg0.N, win0_3.index t 0 = t.val ∧ win0_3.index t 1 = 0 :=
  (by decide +kernel : ∀ t : Fin grid0.N, win0_3.index t 0 = t.val ∧ win0_3.index t 1 = 0)
/-- Window 4's block at point t is block row t, column block 0. -/
theorem index_4 : ∀ t : Fin cfg0.N, win0_4.index t 0 = t.val ∧ win0_4.index t 1 = 0 :=
  (by decide +kernel : ∀ t : Fin grid0.N, win0_4.index t 0 = t.val ∧ win0_4.index t 1 = 0)
/-- Window 5's block at point t is block row t, column block 0. -/
theorem index_5 : ∀ t : Fin cfg0.N, win0_5.index t 0 = t.val ∧ win0_5.index t 1 = 0 :=
  (by decide +kernel : ∀ t : Fin grid0.N, win0_5.index t 0 = t.val ∧ win0_5.index t 1 = 0)

/-- The collective variable's block is the whole [1,2] array. -/
theorem iblk_s (c : Dev nD) (t : Fin cfg0.N) : (iblk m c 0 t : Vec F S1x2 .f32) = V m c main_v29 := by
  funext j
  unfold iblk
  rw [View.read_apply]
  show V m c main_v29 _ = V m c main_v29 j
  refine congrArg (V m c main_v29) (funext fun a => Fin.ext ?_)
  match a with
  | ⟨0, _⟩ => show win0_0.index t 0 * 1 + 1 * (j 0).val = (j 0).val; rw [(index_s t).1]; omega
  | ⟨1, _⟩ => show win0_0.index t 1 * 2 + 1 * (j 1).val = (j 1).val; rw [(index_s t).2]; omega

/-- Entry (r, l) of point t's block of the heights is entry (t·2048 + r, l) of the array. -/
theorem iblk_1 (c : Dev nD) (t : Fin cfg0.N) (r : Fin 2048) (l : Fin 128) :
    (iblk m c 1 t : Vec F S2048x128 .f32) (ix2 r l) = (V m c main_v30 : Vec F S65536x128 .f32) (ix2 (tileRow t r) l) := by
  unfold iblk
  rw [View.read_apply]
  show V m c main_v30 _ = V m c main_v30 _
  refine congrArg (V m c main_v30) (funext fun a => Fin.ext ?_)
  match a with
  | ⟨0, _⟩ => show win0_1.index t 0 * 2048 + 1 * r.val = t.val * 2048 + r.val; rw [(index_1 t).1]; omega
  | ⟨1, _⟩ => show win0_1.index t 1 * 128 + 1 * l.val = l.val; rw [(index_1 t).2]; omega

/-- Entry (r, l) of point t's block of the first centre coordinate is entry (t·2048 + r, l) of the array. -/
theorem iblk_2 (c : Dev nD) (t : Fin cfg0.N) (r : Fin 2048) (l : Fin 128) :
    (iblk m c 2 t : Vec F S2048x128 .f32) (ix2 r l) = (V m c main_v33 : Vec F S65536x128 .f32) (ix2 (tileRow t r) l) := by
  unfold iblk
  rw [View.read_apply]
  show V m c main_v33 _ = V m c main_v33 _
  refine congrArg (V m c main_v33) (funext fun a => Fin.ext ?_)
  match a with
  | ⟨0, _⟩ => show win0_2.index t 0 * 2048 + 1 * r.val = t.val * 2048 + r.val; rw [(index_2 t).1]; omega
  | ⟨1, _⟩ => show win0_2.index t 1 * 128 + 1 * l.val = l.val; rw [(index_2 t).2]; omega

/-- Entry (r, l) of point t's block of the second centre coordinate is entry (t·2048 + r, l) of the array. -/
theorem iblk_3 (c : Dev nD) (t : Fin cfg0.N) (r : Fin 2048) (l : Fin 128) :
    (iblk m c 3 t : Vec F S2048x128 .f32) (ix2 r l) = (V m c main_v36 : Vec F S65536x128 .f32) (ix2 (tileRow t r) l) := by
  unfold iblk
  rw [View.read_apply]
  show V m c main_v36 _ = V m c main_v36 _
  refine congrArg (V m c main_v36) (funext fun a => Fin.ext ?_)
  match a with
  | ⟨0, _⟩ => show win0_3.index t 0 * 2048 + 1 * r.val = t.val * 2048 + r.val; rw [(index_3 t).1]; omega
  | ⟨1, _⟩ => show win0_3.index t 1 * 128 + 1 * l.val = l.val; rw [(index_3 t).2]; omega

/-- Entry (r, l) of point t's block of the first reciprocal width is entry (t·2048 + r, l) of the array. -/
theorem iblk_4 (c : Dev nD) (t : Fin cfg0.N) (r : Fin 2048) (l : Fin 128) :
    (iblk m c 4 t : Vec F S2048x128 .f32) (ix2 r l) = (V m c main_v41 : Vec F S65536x128 .f32) (ix2 (tileRow t r) l) := by
  unfold iblk
  rw [View.read_apply]
  show V m c main_v41 _ = V m c main_v41 _
  refine congrArg (V m c main_v41) (funext fun a => Fin.ext ?_)
  match a with
  | ⟨0, _⟩ => show win0_4.index t 0 * 2048 + 1 * r.val = t.val * 2048 + r.val; rw [(index_4 t).1]; omega
  | ⟨1, _⟩ => show win0_4.index t 1 * 128 + 1 * l.val = l.val; rw [(index_4 t).2]; omega

/-- Entry (r, l) of point t's block of the second reciprocal width is entry (t·2048 + r, l) of the array. -/
theorem iblk_5 (c : Dev nD) (t : Fin cfg0.N) (r : Fin 2048) (l : Fin 128) :
    (iblk m c 5 t : Vec F S2048x128 .f32) (ix2 r l) = (V m c main_v46 : Vec F S65536x128 .f32) (ix2 (tileRow t r) l) := by
  unfold iblk
  rw [View.read_apply]
  show V m c main_v46 _ = V m c main_v46 _
  refine congrArg (V m c main_v46) (funext fun a => Fin.ext ?_)
  match a with
  | ⟨0, _⟩ => show win0_5.index t 0 * 2048 + 1 * r.val = t.val * 2048 + r.val; rw [(index_5 t).1]; omega
  | ⟨1, _⟩ => show win0_5.index t 1 * 128 + 1 * l.val = l.val; rw [(index_5 t).2]; omega

end Cert.KernelIdeal.Hand

end
-- ==== Proof.KHost.lean ====
/-
  What the kernel's region finds in its operand arrays.

  Before its region the kernel's program computes, on the host, the collective variable s — by the same operations as
  the reference, so it is the reference's network function of the same arguments — and five [65536, 128] arrays cut
  from the Gaussians' parameters: the heights reshaped; each column of the centres, sliced out, flattened and
  reshaped; and for each column of the widths the quotient of the all-ones array by the column, reshaped. A reshape
  keeps row-major position, and the row-major position of (R, l) in [65536, 128] is R · 128 + l: so row R, lane l of
  each array holds the entry of Gaussian number R · 128 + l — its height, a centre coordinate, or one over a width
  (the quotient 1 / w of the extended reals, whatever w is).
-/
import proofs.«119575_j49194555408957_2_alg».proof.Proof.Gen.KernelIdeal.Frame
import proofs.«119575_j49194555408957_2_alg».proof.Proof.Net
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.ShloMosaic.StableHlo

/-- Gaussian number of row R, lane l of the [65536, 128] arrangement: R · 128 + l. -/
abbrev gauss (R : Fin 65536) (l : Fin 128) : Fin 8388608 :=
  ⟨R.val * 128 + l.val, by have := R.isLt; have := l.isLt; omega⟩

section Reads
variable {α : Type}

/-- A flat [8388608] array reshaped to [65536, 128], at row R, lane l, is the flat array at R · 128 + l. -/
theorem reshape_flat_apply (x : S8388608.Idx → α) (h : S8388608.ShapeCasts S65536x128) (R : Fin 65536) (l : Fin 128) :
    shapeCast S65536x128 x h (ix2 R l) = x (ix1 (gauss R l)) :=
  shapeCast_apply x h (ix2 R l) (ix1 (gauss R l)) (by rw [Shape.rowMajor_val_one, Shape.rowMajor_val_two]; rfl)

/-- A one-column [8388608, 1] array flattened to [8388608], at g, is the column at (g, 0). -/
theorem reshape_col_apply (x : S8388608x1.Idx → α) (h : S8388608x1.ShapeCasts S8388608) (g : Fin 8388608) :
    shapeCast S8388608 x h (ix1 g) = x (ix2 g (0 : Fin 1)) :=
  shapeCast_apply x h (ix1 g) (ix2 g (0 : Fin 1)) (by
    rw [Shape.rowMajor_val_one, Shape.rowMajor_val_two]
    show g.val * 1 + 0 = g.val
    omega)

/-- Column 0 of a [8388608, 2] array, sliced out, at (g, 0) is the array at (g, 0). -/
theorem slice_col0_apply (x : S8388608x2.Idx → α) (h : S8388608x2.Slices ![0, 0] S8388608x1) (g : Fin 8388608) :
    extractStridedSlice S8388608x1 ![0, 0] x h (ix2 g (0 : Fin 1)) = x (ix2 g (0 : Fin 2)) :=
  extractStridedSlice_apply ![0, 0] x h (ix2 g (0 : Fin 1)) (ix2 g (0 : Fin 2)) (by
    intro a; fin_cases a
    · show g.val = 0 + g.val; omega
    · show (0 : ℕ) = 0 + 0; rfl)

/-- Column 1 of a [8388608, 2] array, sliced out, at (g, 0) is the array at (g, 1). -/
theorem slice_col1_apply (x : S8388608x2.Idx → α) (h : S8388608x2.Slices ![0, 1] S8388608x1) (g : Fin 8388608) :
    extractStridedSlice S8388608x1 ![0, 1] x h (ix2 g (0 : Fin 1)) = x (ix2 g (1 : Fin 2)) :=
  extractStridedSlice_apply ![0, 1] x h (ix2 g (0 : Fin 1)) (ix2 g (1 : Fin 2)) (by
    intro a; fin_cases a
    · show g.val = 0 + g.val; omega
    · show (1 : ℕ) = 1 + 0; rfl)

end Reads

variable (m : (ℓ : Loc nD τ sig) → Buf (Elt Ideal) ℓ)

set_option maxRecDepth 8192 in
set_option maxHeartbeats 2000000 in
/-- The collective variable the region finds is the reference's network function of the arguments. -/
theorem V_s (c : Dev nD) : V m c main_v29 = Cert.ReferenceIdeal.Hand.sNet (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [Gen.V, Gen.V0]
  simp only [Gen.hostOps0, List.flatten_cons, List.flatten_nil, List.append_nil]
  after_results_simp
  rfl

set_option maxRecDepth 8192 in
set_option maxHeartbeats 2000000 in
/-- Row R, lane l of the heights' array is the height of Gaussian R · 128 + l. -/
theorem V_h (c : Dev nD) (R : Fin 65536) (l : Fin 128) :
    (V m c main_v30 : S65536x128.Idx → EReal) (ix2 R l)
      = (m ((c : Thread nD τ).loc main_arg1) : S8388608.Idx → EReal) (ix1 (gauss R l)) := by
  dsimp only [Gen.V, Gen.V0]
  simp only [Gen.hostOps0, List.flatten_cons, List.flatten_nil, List.append_nil]
  after_results_simp
  exact reshape_flat_apply _ _ R l

set_option maxRecDepth 8192 in
set_option maxHeartbeats 2000000 in
/-- Row R, lane l of the first centres' array is the first centre coordinate of Gaussian R · 128 + l. -/
theorem V_cx (c : Dev nD) (R : Fin 65536) (l : Fin 128) :
    (V m c main_v33 : S65536x128.Idx → EReal) (ix2 R l)
      = (m ((c : Thread nD τ).loc main_arg2) : S8388608x2.Idx → EReal) (ix2 (gauss R l) (0 : Fin 2)) := by
  dsimp only [Gen.V, Gen.V0]
  simp only [Gen.hostOps0, List.flatten_cons, List.flatten_nil, List.append_nil]
  after_results_simp
  refine (reshape_flat_apply _ _ R l).trans ?_
  refine (reshape_col_apply _ _ (gauss R l)).trans ?_
  exact slice_col0_apply _ _ (gauss R l)

set_option maxRecDepth 8192 in
set_option maxHeartbeats 2000000 in
/-- Row R, lane l of the second centres' array is the second centre coordinate of Gaussian R · 128 + l. -/
theorem V_cy (c : Dev nD) (R : Fin 65536) (l : Fin 128) :
    (V m c main_v36 : S65536x128.Idx → EReal) (ix2 R l)
      = (m ((c : Thread nD τ).loc main_arg2) : S8388608x2.Idx → EReal) (ix2 (gauss R l) (1 : Fin 2)) := by
  dsimp only [Gen.V, Gen.V0]
  simp only [Gen.hostOps0, List.flatten_cons, List.flatten_nil, List.append_nil]
  after_results_simp
  refine (reshape_flat_apply _ _ R l).trans ?_
  refine (reshape_col_apply _ _ (gauss R l)).trans ?_
  exact slice_col1_apply _ _ (gauss R l)

set_option maxRecDepth 8192 in
set_option maxHeartbeats 2000000 in
/-- Row R, lane l of the first reciprocal-widths' array is one over the first width of Gaussian R · 128 + l. -/
theorem V_ux (c : Dev nD) (R : Fin 65536) (l : Fin 128) :
    (V m c main_v41 : S65536x128.Idx → EReal) (ix2 R l)
      = Ideal.div 1 ((m ((c : Thread nD τ).loc main_arg3) : S8388608x2.Idx → EReal) (ix2 (gauss R l) (0 : Fin 2))) := by
  dsimp only [Gen.V, Gen.V0]
  simp only [Gen.hostOps0, List.flatten_cons, List.flatten_nil, List.append_nil]
  after_results_simp
  refine (reshape_flat_apply _ _ R l).trans ?_
  rw [hostDivf_apply]
  refine congrArg₂ Ideal.div Ideal.ofBits_one_f32 ?_
  refine (reshape_col_apply _ _ (gauss R l)).trans ?_
  exact slice_col0_apply _ _ (gauss R l)

set_option maxRecDepth 8192 in
set_option maxHeartbeats 2000000 in
/-- Row R, lane l of the second reciprocal-widths' array is one over the second width of Gaussian R · 128 + l. -/
theorem V_uy (c : Dev nD) (R : Fin 65536) (l : Fin 128) :
    (V m c main_v46 : S65536x128.Idx → EReal) (ix2 R l)
      = Ideal.div 1 ((m ((c : Thread nD τ).loc main_arg3) : S8388608x2.Idx → EReal) (ix2 (gauss R l) (1 : Fin 2))) := by
  dsimp only [Gen.V, Gen.V0]
  simp only [Gen.hostOps0, List.flatten_cons, List.flatten_nil, List.append_nil]
  after_results_simp
  refine (reshape_flat_apply _ _ R l).trans ?_
  rw [hostDivf_apply]
  refine congrArg₂ Ideal.div Ideal.ofBits_one_f32 ?_
  refine (reshape_col_apply _ _ (gauss R l)).trans ?_
  exact slice_col1_apply _ _ (gauss R l)

end Cert.KernelIdeal.Hand

end
-- ==== Proof.KAccum.lean ====
/-
  The accumulator after every grid point, and the output block of each half.

  With f k the contribution of Gaussian number k (`Cert.Potential.kterm` of the arrays the kernel was launched
  with), grid point t's blocks hold exactly the Gaussians (t·2048 + r)·128 + l, so its tile sum is
  `Cert.Potential.tileSum f t`; by induction on the point the scratch accumulator holds `Cert.Potential.accum f t`
  after point t (reset at t = 0 and t = 16), and the output block written at t = 15 and t = 31 holds that value in
  every entry.
-/
import proofs.«119575_j49194555408957_2_alg».proof.Proof.KStep
import proofs.«119575_j49194555408957_2_alg».proof.Proof.KBlocks
import proofs.«119575_j49194555408957_2_alg».proof.Proof.KHost
import proofs.«119575_j49194555408957_2_alg».proof.Proof.Potential

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- Gaussian number k's contribution, from the collective variable the host prefix computed and the launch
    contents of the heights, centres and widths. -/
def fK (c : Dev nD) : ℕ → EReal :=
  Cert.Potential.kterm (V m c main_v29) (m ((c : Thread nD τ).loc main_arg1)) (m ((c : Thread nD τ).loc main_arg2))
    (m ((c : Thread nD τ).loc main_arg3))

/-- Grid point t's double sum over its blocks is tile t's sum of the contributions. -/
theorem tile_eq (c : Dev nD) (t : Fin cfg0.N) :
    (∑ r : Fin 2048, ∑ l : Fin 128,
      Cert.Potential.bump ((iblk m c 0 t : Vec Ideal S1x2 .f32) (ix2 (0 : Fin 1) (0 : Fin 2)))
        ((iblk m c 0 t : Vec Ideal S1x2 .f32) (ix2 (0 : Fin 1) (1 : Fin 2)))
        ((iblk m c 1 t : Vec Ideal S2048x128 .f32) (ix2 r l)) ((iblk m c 2 t : Vec Ideal S2048x128 .f32) (ix2 r l))
        ((iblk m c 3 t : Vec Ideal S2048x128 .f32) (ix2 r l)) ((iblk m c 4 t : Vec Ideal S2048x128 .f32) (ix2 r l))
        ((iblk m c 5 t : Vec Ideal S2048x128 .f32) (ix2 r l)))
      = Cert.Potential.tileSum (fK m c) t.val := by
  unfold Cert.Potential.tileSum
  refine Finset.sum_congr rfl fun r _ => Finset.sum_congr rfl fun l _ => ?_
  have hlt : (t.val * 2048 + r.val) * 128 + l.val < 8388608 := by
    have hN : cfg0.N = 32 := N_0
    have := t.isLt; have := r.isLt; have := l.isLt; omega
  rw [iblk_s, iblk_1, iblk_2, iblk_3, iblk_4, iblk_5, V_h, V_cx, V_cy, V_ux, V_uy]
  unfold fK Cert.Potential.kterm
  rw [dif_pos hlt]
  rfl

/-- The zero the accumulator is reset to reads 0 at its entry. -/
theorem zero_apply (j : S1x1.Idx) : (k0_pay3 (F := Ideal)) j = 0 := by
  unfold k0_pay3
  rw [shapeCast_self]
  exact Ideal.ofBits_zero_f32

/-- After point n the scratch accumulator holds `accum f n`. -/
theorem scratch_eq (c : Dev nD) : ∀ (n : ℕ) (hn : n < cfg0.N),
    (outsAt0 m c n hn).2 = fun _ => Cert.Potential.accum (fK m c) n
  | 0, hn => by
    rw [outsAt0_A m c ⟨0, hn⟩ (by show 0 % 16 = 0; rfl) (by show ¬ 0 % 16 = 15; decide)]
    dsimp only
    rw [scratch_first]
    funext j
    rw [step_apply, tile_eq, zero_apply]
    rfl
  | n + 1, hn => by
    have hN : cfg0.N = 32 := N_0
    by_cases h0 : (n + 1) % 16 = 0
    · have h1 : ¬ (n + 1) % 16 = 15 := by omega
      rw [outsAt0_A m c ⟨n + 1, hn⟩ h0 h1]
      dsimp only
      rw [scratch_first]
      funext j
      rw [step_apply, tile_eq, zero_apply]
      show _ = Cert.Potential.accum (fK m c) (n + 1)
      rw [Cert.Potential.accum, if_pos h0]
    · have ih := scratch_eq c n (Nat.lt_of_succ_lt hn)
      by_cases h1 : (n + 1) % 16 = 15
      · rw [outsAt0_C m c ⟨n + 1, hn⟩ h0 h1]
        dsimp only
        rw [scratch_last]
        funext j
        rw [step_apply, tile_eq]
        show (outsAt0 m c n _).2 j + _ = Cert.Potential.accum (fK m c) (n + 1)
        rw [ih, Cert.Potential.accum, if_neg h0]
      · rw [outsAt0_B m c ⟨n + 1, hn⟩ h0 h1]
        dsimp only
        rw [scratch_mid]
        funext j
        rw [step_apply, tile_eq]
        show (outsAt0 m c n _).2 j + _ = Cert.Potential.accum (fK m c) (n + 1)
        rw [ih, Cert.Potential.accum, if_neg h0]

/-- The spread of a [1,1] value's one entry over a [1,8,128] block reads that entry everywhere. -/
theorem spread_apply (v : Vec Ideal S1x1 .f32) (j : S1x8x128.Idx) :
    (k0_pay2 (F := Ideal) v) j = v (ix2 (0 : Fin 1) (0 : Fin 1)) := by
  unfold k0_pay2
  show extractAt ![0, 0] v _ = _
  unfold extractAt
  refine congrArg v (funext fun a => Fin.ext ?_)
  match a with
  | ⟨0, _⟩ => rfl
  | ⟨1, _⟩ => rfl

/-- At the last point of a half (t ≡ 15 mod 16) the output's staging block holds `accum f t` in every entry. -/
theorem out_eq (c : Dev nD) (t : Fin cfg0.N) (h15 : t.val % 16 = 15) :
    (outsAt0 m c t.val t.isLt).1 = fun _ => Cert.Potential.accum (fK m c) t.val := by
  have hN : cfg0.N = 32 := N_0
  have h0 : ¬ t.val % 16 = 0 := by omega
  have hs := scratch_eq m c t.val t.isLt
  rw [outsAt0_C m c t h0 h15] at hs ⊢
  dsimp only at hs ⊢
  rw [out_last]
  rw [scratch_last] at hs
  funext j
  rw [spread_apply, hs]

end Cert.KernelIdeal.Hand

end
-- ==== Proof.KFinal.lean ====
/-
  The kernel's run, from what each grid point writes back to the result.

  The grid has 32 points t = 16 · half + tile. The output array is [2, 8, 128]; its block (half, 0, 0), a [1, 8, 128]
  block, is written back only after the last tile of a half (t = 15 and t = 31), and there the block holds, at every
  entry, the accumulator after tile t. The two blocks tile the array, so the array ends as the function
  (h, r, l) ↦ accumulator after tile 16 · h + 15: at a point t ≡ 15 (mod 16) the block's first coordinate in the array
  is t / 16, and 16 · (t / 16) + 15 = t. The five host operations after the region take entry (0, 0, 0) and entry
  (1, 0, 0) of the array (a [1, 1, 1] slice reshaped to a scalar has a single entry) and add them: the result is the
  accumulator after tile 15 plus the accumulator after tile 31. No argument array is written.
-/
import proofs.«119575_j49194555408957_2_alg».proof.Proof.KAccum
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The whole-array function the output ends at: entry (h, _, _) holds the accumulator after the last tile of half h. -/
def outArr (c : Dev nD) : S2x8x128.Idx → EReal := fun j => Cert.Potential.accum (fK m c) (16 * (j 0).val + 15)

namespace KFinal

/-- Point t = 16 · half + tile writes block (half, 0, 0): the output's block index, decided once over the 32 points. -/
theorem blockIndex : ∀ t : Fin cfg0.N, win0_6.index t (0 : Fin 3) = t.val / 16 ∧ win0_6.index t (1 : Fin 3) = 0
    ∧ win0_6.index t (2 : Fin 3) = 0 :=
  (by decide +kernel : ∀ t : Fin grid0.N, _)

/-- What a point after the last tile of a half writes back is its block of `outArr`: the block is constant at the
    accumulator after tile t, and its first coordinate in the array is t / 16, with 16 · (t / 16) + 15 = t. -/
theorem flushed_eq (c : Dev nD) (t : Fin cfg0.N) (hf : (cfg0.win 6).flush t = true) :
    (dats m 0 c).flushed 6 t = ((cfg0.win 6).blk t).view.read (Elt Ideal) (outArr m c) := by
  have hN : cfg0.N = 32 := N_0
  have h15 : t.val % 16 = 15 := (flush0_6 t).mp hf
  obtain ⟨e0, -, -⟩ := blockIndex t
  show (cfg0.win 6).cut (grid0.coords t) ((dats m 0 c).after 6 t) = _
  rw [after0_6, out_eq m c t h15]
  funext y
  show Cert.Potential.accum (fK m c) t.val
    = Cert.Potential.accum (fK m c) (16 * (((cfg0.win 6).blk t).view.emb y 0).val + 15)
  congr 1
  show t.val = 16 * (win0_6.index t (0 : Fin 3) * 1 + 1 * (y 0).val) + 15
  have hy : (y 0).val < 1 := (y 0).isLt
  have := t.isLt
  omega

/-- An index of the array is in point t's block iff each coordinate is in the block's range on its axis. -/
theorem mem_blk (t : Fin cfg0.N) (i : S2x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v47).slice (win0_6.rect t)).set ↔ _
  rw [View.set_slice_whole, Rect.mem_set_unit]
  exact Iff.rfl

/-- Every entry (h, r, l) of the array lies in the block written back after the last tile of half h. -/
theorem cover (i : S2x8x128.Idx) :
    ∃ t : Fin cfg0.N, (cfg0.win 6).flush t = true ∧ i ∈ ((cfg0.win 6).blk t).view.set := by
  have hN : cfg0.N = 32 := N_0
  have h0 : (i 0).val < 2 := (i 0).isLt
  have h1 : (i 1).val < 8 := (i 1).isLt
  have h2 : (i 2).val < 128 := (i 2).isLt
  have ht : 16 * (i 0).val + 15 < cfg0.N := by omega
  obtain ⟨e0, e1, e2⟩ := blockIndex ⟨16 * (i 0).val + 15, ht⟩
  have e0' : win0_6.index ⟨16 * (i 0).val + 15, ht⟩ (0 : Fin 3) = (16 * (i 0).val + 15) / 16 := e0
  refine ⟨⟨16 * (i 0).val + 15, ht⟩, (flush0_6 _).mpr (show (16 * (i 0).val + 15) % 16 = 15 by omega), ?_⟩
  rw [mem_blk]
  intro a
  match a with
  | ⟨0, _⟩ =>
    show win0_6.index ⟨16 * (i 0).val + 15, ht⟩ (0 : Fin 3) * 1 ≤ (i 0).val
      ∧ (i 0).val < win0_6.index ⟨16 * (i 0).val + 15, ht⟩ (0 : Fin 3) * 1 + 1
    omega
  | ⟨1, _⟩ =>
    show win0_6.index ⟨16 * (i 0).val + 15, ht⟩ (1 : Fin 3) * 8 ≤ (i 1).val
      ∧ (i 1).val < win0_6.index ⟨16 * (i 0).val + 15, ht⟩ (1 : Fin 3) * 8 + 8
    omega
  | ⟨2, _⟩ =>
    show win0_6.index ⟨16 * (i 0).val + 15, ht⟩ (2 : Fin 3) * 128 ≤ (i 2).val
      ∧ (i 2).val < win0_6.index ⟨16 * (i 0).val + 15, ht⟩ (2 : Fin 3) * 128 + 128
    omega

end KFinal

open KFinal

/-- So the output array ends at `outArr`. -/
theorem final6 (c : Dev nD) : (dats m 0 c).arrAt 6 cfg0.N = outArr m c :=
  (dats m 0 c).arrAt_eq_of_cover 6 (outArr m c) (flushed_eq m c) cover

namespace KFinal

/-- The five host operations after the region, read at the result's one index over ANY [2,8,128] array:
    the entry at (0,0,0) plus the entry at (1,0,0). A [1,1,1] slice reshaped to a scalar has one entry, so both
    row-major positions are 0; the slices start at (0,0,0) and at (1,0,0). -/
theorem tailOps_apply (h0 : S2x8x128.Slices ![0, 0, 0] S1x1x1) (h1 : S2x8x128.Slices ![1, 0, 0] S1x1x1)
    (hc : S1x1x1.ShapeCasts S_) (X : S2x8x128.Idx → EReal) (j : S_.Idx) :
    addf (F := Ideal) (φ := .f32) (shapeCast S_ (extractStridedSlice S1x1x1 ![0, 0, 0] X h0) hc)
        (shapeCast S_ (extractStridedSlice S1x1x1 ![1, 0, 0] X h1) hc) j
      = X (ix3 (0 : Fin 2) (0 : Fin 8) (0 : Fin 128)) + X (ix3 (1 : Fin 2) (0 : Fin 8) (0 : Fin 128)) := by
  have n1 : S1x1x1.numel = 1 := by decide
  have n0 : S_.numel = 1 := by decide
  have pos : (S1x1x1.rowMajor (ix3 (0 : Fin 1) (0 : Fin 1) (0 : Fin 1))).val = (S_.rowMajor j).val := by
    have a := (S1x1x1.rowMajor (ix3 (0 : Fin 1) (0 : Fin 1) (0 : Fin 1))).isLt
    have b := (S_.rowMajor j).isLt
    omega
  have e0 : shapeCast S_ (extractStridedSlice S1x1x1 ![0, 0, 0] X h0) hc j = X (ix3 (0 : Fin 2) (0 : Fin 8) (0 : Fin 128)) :=
    (shapeCast_apply _ hc j (ix3 (0 : Fin 1) (0 : Fin 1) (0 : Fin 1)) pos).trans
      (extractStridedSlice_apply ![0, 0, 0] X h0 _ (ix3 (0 : Fin 2) (0 : Fin 8) (0 : Fin 128))
        (fun a => match a with | ⟨0, _⟩ => rfl | ⟨1, _⟩ => rfl | ⟨2, _⟩ => rfl))
  have e1 : shapeCast S_ (extractStridedSlice S1x1x1 ![1, 0, 0] X h1) hc j = X (ix3 (1 : Fin 2) (0 : Fin 8) (0 : Fin 128)) :=
    (shapeCast_apply _ hc j (ix3 (0 : Fin 1) (0 : Fin 1) (0 : Fin 1)) pos).trans
      (extractStridedSlice_apply ![1, 0, 0] X h1 _ (ix3 (1 : Fin 2) (0 : Fin 8) (0 : Fin 128))
        (fun a => match a with | ⟨0, _⟩ => rfl | ⟨1, _⟩ => rfl | ⟨2, _⟩ => rfl))
  rw [addf_apply, e0, e1]

/-- After the region the result is the accumulator after tile 15 plus the accumulator after tile 31. -/
theorem tail_eq (c : Dev nD) :
    Pipeline.afterTail₀ cfgs (dats m) 0 (V0 m) [hostOps1] c main_v52
      = fun _ => Cert.Potential.accum (fK m c) 15 + Cert.Potential.accum (fK m c) 31 := by
  have hA : Pipeline.withArrays (cfgs 0).spec c (V0 m c) (fun w => (dats m 0 c).arrAt w (cfgs 0).N)
      (Proc.devRef .tc main_v47) = outArr m c :=
    (Pipeline.withArrays_arr spec0 launch0.win.arr_inj c _ _ 6).trans (final6 m c)
  unfold Pipeline.afterTail₀
  show StableHlo.after hostOps1 _ (Proc.devRef .tc main_v52) = _
  after_results
  funext j
  refine (tailOps_apply slices_S2x8x128_S1x1x1_0_0_0 slices_S2x8x128_S1x1x1_1_0_0 shapeCasts_S1x1x1_S_ _ j).trans ?_
  rw [hA]
  rfl

end KFinal

/-- THE KERNEL'S RUN, READ: the result at the sum of the two halves' accumulators, every argument unchanged. -/
theorem run : θ_run defs (onTc (τ := τ) (main (F := Ideal))) ⟨m, fun _ => 0, ρ⟩ fun r => ∀ c : Dev nD,
      r.2.mem ((c.tc : Thread nD τ).loc main_v52)
        = (fun _ => Cert.Potential.accum (fK m c) 15 + Cert.Potential.accum (fK m c) 31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v52 (Pipeline.mem_restRefs_of main_v52 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Hand

end
-- ==== Proof.WidthsNonzero.lean ====
/-
  Every width is nonzero.

  The precondition is a conjunction of tests, each a single truth value: that every entry of every argument array is
  finite, and last that every entry of the widths array differs from zero (an elementwise comparison "not equal" with an
  all-zero array, reduced by "and" over both axes). A conjunction that is true has every conjunct true; a reduction by
  "and" over all axes that is true had a true at every index; and at the extended reals the comparison "not equal" of x
  with the zero word is true exactly when x ≠ 0, the zero word denoting 0. So under the precondition each width is a
  nonzero extended real.
-/
import proofs.«119575_j49194555408957_2_alg».proof.Defs
import proofs.«119575_j49194555408957_2_alg».proof.Proof.Gen.Pre_finite_inputs
import Idealize.ShloMosaic.Lib.ReduceAll
import Idealize.ShloMosaic.Lib.ValueIdx
import Idealize.ShloMosaic.PureOps.Ideal.Laws

noncomputable section

namespace Cert.Hand

open Idealize.ShloMosaic Idealize.SL.Sem

/-- The scalar shape has one index. -/
instance subsingleton_scalarIdx : Subsingleton Cert.Pre_finite_inputs.S_.Idx := ⟨fun a b => funext fun d => d.elim0⟩

/-- At the extended reals a true comparison "not equal" says the two sides differ. -/
theorem ne_of_cmp_une {x y : EReal} (h : Ideal.cmp .une x y = 1#1) : x ≠ y := by
  have h' : BitVec.ofBool (decide (x ≠ y)) = 1#1 := h
  intro hxy
  rw [decide_eq_false (fun hne => hne hxy)] at h'
  exact absurd h' (by decide)

/-- The precondition's function, all ones on plain arrays, makes every entry of the fourth array nonzero. -/
theorem fn_widths_ne_zero
    (a0 : FVec Ideal Cert.Pre_finite_inputs.S22x3 .f32) (a1 : FVec Ideal Cert.Pre_finite_inputs.S8388608 .f32)
    (a2 a3 : FVec Ideal Cert.Pre_finite_inputs.S8388608x2 .f32) (a4 : FVec Ideal Cert.Pre_finite_inputs.S45x128 .f32)
    (a5 : FVec Ideal Cert.Pre_finite_inputs.S128 .f32) (a6 : FVec Ideal Cert.Pre_finite_inputs.S128x128 .f32)
    (a7 : FVec Ideal Cert.Pre_finite_inputs.S128 .f32) (a8 : FVec Ideal Cert.Pre_finite_inputs.S128x2 .f32)
    (a9 : FVec Ideal Cert.Pre_finite_inputs.S2 .f32)
    (h : Cert.Pre_finite_inputs.fn (F := Ideal) a0 a1 a2 a3 a4 a5 a6 a7 a8 a9 = fun _ => 1#1)
    (i : Cert.Pre_finite_inputs.S8388608x2.Idx) : (a3 i : EReal) ≠ 0 := by
  have e := congrFun h ValueIdx.ix0
  dsimp only [Cert.Pre_finite_inputs.fn, Cert.Pre_finite_inputs.fn_part1, Cert.Pre_finite_inputs.fn_part2,
    Cert.Pre_finite_inputs.fn_part3] at e
  have e2 := (IntOp.andi_eq_one.1 e).2
  have e3 := Host.reduce_andi_all _ _ _ _ _ e2 i
  have e4 : Ideal.cmp .une (a3 i) (Ideal.ofBits .f32 0x00000000#32) = 1#1 := e3
  rw [Ideal.ofBits_zero_f32] at e4
  exact ne_of_cmp_une e4

/-- Under the precondition every entry of the widths array is a nonzero extended real. -/
theorem widths_ne_zero (m : (ℓ : Loc Cert.KernelIdeal.nD Cert.KernelIdeal.τ Cert.KernelIdeal.sig) → Buf (Elt Ideal) ℓ)
    (hpre : Cert.Pre_KernelIdeal m) (c : Dev Cert.KernelIdeal.nD) (g : Fin 8388608) (a : Fin 2) :
    (m ((c.tc : Thread Cert.KernelIdeal.nD Cert.KernelIdeal.τ).loc Cert.KernelIdeal.main_arg3) :
      Cert.KernelIdeal.S8388608x2.Idx → EReal) (Idealize.ShloMosaic.ValueIdx.ix2 g a) ≠ (0 : EReal) :=
  fn_widths_ne_zero _ _ _ _ _ _ _ _ _ _ (hpre c) (Idealize.ShloMosaic.ValueIdx.ix2 g a)

end Cert.Hand

end
-- ==== Proof.lean ====
/-
  The certificate: the kernel and its reference compute the same Gaussian bias potential.

  Both programs first compute the collective variable `s` (pair distances of the positions through a three-layer
  tanh network) by the same host operations; it is carried as one function (`sNet`) and never opened. The reference
  then sums, over the 8388608 Gaussians, height · exp(−½ · Σₐ ((sₐ − centreₐ) / widthₐ)²) in one sum started from 0
  (`Cert.Potential.total`). The kernel multiplies by reciprocal widths computed on the host, walks the Gaussians in
  32 tiles of 2048 × 128 on a grid of 2 halves × 16 tiles with a scratch accumulator per half, and adds the two
  halves' totals on the host.

  On the extended reals x / w = x · (1 / w) for every w ≠ 0 (at w = 0 the two differ: 0 / 0 is ⊥ while 0 · (1/0) = 0),
  which is where the precondition "no width is zero" is used; regrouping the sum needs nothing, addition of extended
  reals being commutative and associative. Finiteness of the inputs is not used.

  The frames of the two kernel programs are the generated ones; the reference's frame is its run with the result
  dropped; the ideal pass rewrote nothing, so `preserves` is trivial.
-/
import proofs.«119575_j49194555408957_2_alg».proof.Defs
import proofs.«119575_j49194555408957_2_alg».proof.Proof.Gen.Kernel
import proofs.«119575_j49194555408957_2_alg».proof.Proof.Gen.Kernel.Skeleton
import proofs.«119575_j49194555408957_2_alg».proof.Proof.Gen.Kernel.Launch
import proofs.«119575_j49194555408957_2_alg».proof.Proof.Gen.Kernel.Points
import proofs.«119575_j49194555408957_2_alg».proof.Proof.Gen.Kernel.Frame
import proofs.«119575_j49194555408957_2_alg».proof.Proof.Gen.KernelIdeal
import proofs.«119575_j49194555408957_2_alg».proof.Proof.Gen.KernelIdeal.Skeleton
import proofs.«119575_j49194555408957_2_alg».proof.Proof.Gen.KernelIdeal.Launch
import proofs.«119575_j49194555408957_2_alg».proof.Proof.Gen.KernelIdeal.Points
import proofs.«119575_j49194555408957_2_alg».proof.Proof.Gen.KernelIdeal.Frame
import proofs.«119575_j49194555408957_2_alg».proof.Proof.Gen.ReferenceIdeal
import proofs.«119575_j49194555408957_2_alg».proof.Proof.Gen.Pre_finite_inputs
import proofs.«119575_j49194555408957_2_alg».proof.Proof.RefRun
import proofs.«119575_j49194555408957_2_alg».proof.Proof.RefValue
import proofs.«119575_j49194555408957_2_alg».proof.Proof.KFinal
import proofs.«119575_j49194555408957_2_alg».proof.Proof.KHost
import proofs.«119575_j49194555408957_2_alg».proof.Proof.WidthsNonzero
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both runs end with the result at `Cert.Potential.total` of the collective variable and the heights, centres and
    widths: the kernel's two half totals add up to it because no width is zero, the reference's sum is it as printed. -/
theorem algebraic : Cert.algebraic_KernelIdeal_ReferenceIdeal := by
  intro m ρ m' ρ' hpre hagree
  refine ⟨fun c => fun _ => Cert.Potential.total
      (Cert.ReferenceIdeal.Hand.sNet (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Hand.run m ρ)
    funext _
    unfold Cert.KernelIdeal.Hand.fK
    rw [Cert.Potential.kernel_total _ _ _ _ (fun g a => Cert.Hand.widths_ne_zero m hpre c g a),
      Cert.KernelIdeal.Hand.V_s]
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5, e6, e7, e8, e9⟩ := hagree c
    rw [e0, e1, e2, e3, e4, e5, e6, e7, e8, e9]
    exact Cert.ReferenceIdeal.Hand.gaussTail_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
